-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16x4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16x4096x512 : Shape := ⟨3, ![16, 4096, 512]⟩
abbrev S512x512 : Shape := ⟨2, ![512, 512]⟩
abbrev S512 : Shape := ⟨1, ![512]⟩
abbrev S16x512x4096 : Shape := ⟨3, ![16, 512, 4096]⟩
abbrev S1x1024x512 : Shape := ⟨3, ![1, 1024, 512]⟩
abbrev S1x512x1024 : Shape := ⟨3, ![1, 512, 1024]⟩
abbrev S1024x512 : Shape := ⟨2, ![1024, 512]⟩
abbrev S1x512 : Shape := ⟨2, ![1, 512]⟩
abbrev S512x1024 : Shape := ⟨2, ![512, 1024]⟩
abbrev S16x512x64x64 : Shape := ⟨4, ![16, 512, 64, 64]⟩
abbrev S1x128x64x64 : Shape := ⟨4, ![1, 128, 64, 64]⟩
abbrev S128x64x64 : Shape := ⟨3, ![128, 64, 64]⟩
abbrev S128x32x2x64 : Shape := ⟨4, ![128, 32, 2, 64]⟩
abbrev S128x32x64 : Shape := ⟨3, ![128, 32, 64]⟩
abbrev S128x64x32 : Shape := ⟨3, ![128, 64, 32]⟩
abbrev S128x64 : Shape := ⟨2, ![128, 64]⟩
abbrev S128x64x1 : Shape := ⟨3, ![128, 64, 1]⟩
abbrev S128x32 : Shape := ⟨2, ![128, 32]⟩
abbrev S128x32x1 : Shape := ⟨3, ![128, 32, 1]⟩

abbrev nBuf : Space → Nat
  | .hbm => 16
  | .vmem => 22
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x512x4096, .bf16⟩
  | .hbm, ⟨8, _⟩ => ⟨S16x512x4096, .bf16⟩
  | .hbm, ⟨9, _⟩ => ⟨S16x512x4096, .bf16⟩
  | .hbm, ⟨10, _⟩ => ⟨S16x512x64x64, .bf16⟩
  | .hbm, ⟨11, _⟩ => ⟨S16x512x64x64, .bf16⟩
  | .hbm, ⟨12, _⟩ => ⟨S16x512x64x64, .bf16⟩
  | .hbm, ⟨13, _⟩ => ⟨S16x512x64x64, .f32⟩
  | .hbm, ⟨14, _⟩ => ⟨S16x512x4096, .f32⟩
  | .hbm, ⟨15, _⟩ => ⟨S16x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x128x64x64, .bf16⟩
  | .local _ .vmem, ⟨15, _⟩ => ⟨S1x128x64x64, .bf16⟩
  | .local _ .vmem, ⟨16, _⟩ => ⟨S1x128x64x64, .bf16⟩
  | .local _ .vmem, ⟨17, _⟩ => ⟨S1x128x64x64, .bf16⟩
  | .local _ .vmem, ⟨18, _⟩ => ⟨S1x128x64x64, .bf16⟩
  | .local _ .vmem, ⟨19, _⟩ => ⟨S1x128x64x64, .bf16⟩
  | .local _ .vmem, ⟨20, _⟩ => ⟨S1x128x64x64, .f32⟩
  | .local _ .vmem, ⟨21, _⟩ => ⟨S1x128x64x64, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x64x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  transposes_S1024x512_p1_0_S512x1024 : S1024x512.Transposes [1, 0] S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S16x512x4096_S16x512x64x64 : S16x512x4096.ShapeCasts S16x512x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S128x32x2x64 : S128x64x64.ShapeCasts S128x32x2x64
  reduces_S128x32x2x64_S128x32x64 : S128x32x2x64.Reduces [2] S128x32x64
  reduces_S128x64x32_S128x64 : S128x64x32.Reduces [2] S128x64
  shapeCasts_S128x64_S128x64x1 : S128x64.ShapeCasts S128x64x1
  broadcasts_S128x64x1_S128x64x32 : S128x64x1.Broadcasts S128x64x32
  reduces_S128x32x64_S128x32 : S128x32x64.Reduces [2] S128x32
  shapeCasts_S128x32_S128x32x1 : S128x32.ShapeCasts S128x32x1
  broadcasts_S128x32x1_S128x32x64 : S128x32x1.Broadcasts S128x32x64
  shapeCasts_S128x64x64_S1x128x64x64 : S128x64x64.ShapeCasts S1x128x64x64
  shapeCasts_S16x512x64x64_S16x512x4096 : S16x512x64x64.ShapeCasts S16x512x4096
  transposes_S16x512x4096_S16x4096x512_0_2_1 : S16x512x4096.Transposes [0, 2, 1] S16x4096x512
  dot_S1024x512_S512x512_S1024x512_1_1_0_0_n_n_wf : DotDims.WF S1024x512 S512x512 S1024x512 [1] [1] [0] [0] [] []
  dot_S128x64x64_S128x32x64_S128x64x32_2_2_1_1_0_0_wf : DotDims.WF S128x64x64 S128x32x64 S128x64x32 [2] [2] [1] [1] [0] [0]
  dot_S128x32x64_S128x64x64_S128x32x64_2_2_1_1_0_0_wf : DotDims.WF S128x32x64 S128x64x64 S128x32x64 [2] [2] [1] [1] [0] [0]
  dot_S128x32x64_S128x64x64_S128x32x64_2_1_1_2_0_0_wf : DotDims.WF S128x32x64 S128x64x64 S128x32x64 [2] [1] [1] [2] [0] [0]
  dot_S128x64x32_S128x32x64_S128x64x64_2_1_1_2_0_0_wf : DotDims.WF S128x64x32 S128x32x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x4096x512.size a
  hwx0_0 : ∀ i : grid0.Coords, EltTy.bits .f32 = 32 ∨ (Rect.block (s := S16x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x512x4096.size a
  hwx0_7 : ∀ i : grid0.Coords, EltTy.bits .bf16 = 32 ∨ (Rect.block (s := S16x512x4096) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S16x512x4096.size a
  hwx0_8 : ∀ i : grid0.Coords, EltTy.bits .bf16 = 32 ∨ (Rect.block (s := S16x512x4096) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S16x512x4096.size a
  hwx0_9 : ∀ i : grid0.Coords, EltTy.bits .bf16 = 32 ∨ (Rect.block (s := S16x512x4096) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x64.size a ≤ S16x512x64x64.size a
  hwx1_0 : ∀ i : grid1.Coords, EltTy.bits .bf16 = 32 ∨ (Rect.block (s := S16x512x64x64) S1x128x64x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64x64.size a ≤ S16x512x64x64.size a
  hwx1_1 : ∀ i : grid1.Coords, EltTy.bits .bf16 = 32 ∨ (Rect.block (s := S16x512x64x64) S1x128x64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64x64.size a ≤ S16x512x64x64.size a
  hwx1_2 : ∀ i : grid1.Coords, EltTy.bits .bf16 = 32 ∨ (Rect.block (s := S16x512x64x64) S1x128x64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64x64.size a ≤ S16x512x64x64.size a
  hwx1_3 : ∀ i : grid1.Coords, EltTy.bits .f32 = 32 ∨ (Rect.block (s := S16x512x64x64) S1x128x64x64.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S128x64x64_S128x32x64_S128x64x32_2_2_1_1_0_0 : DotDims S128x64x64 S128x32x64 S128x64x32 where
  lhsContracting := [2]
  rhsContracting := [2]
  lhsNonContracting := [1]
  rhsNonContracting := [1]
  lhsBatch := [0]
  rhsBatch := [0]
  wf := dot_S128x64x64_S128x32x64_S128x64x32_2_2_1_1_0_0_wf
def dot_S128x32x64_S128x64x64_S128x32x64_2_2_1_1_0_0 : DotDims S128x32x64 S128x64x64 S128x32x64 where
  lhsContracting := [2]
  rhsContracting := [2]
  lhsNonContracting := [1]
  rhsNonContracting := [1]
  lhsBatch := [0]
  rhsBatch := [0]
  wf := dot_S128x32x64_S128x64x64_S128x32x64_2_2_1_1_0_0_wf
def dot_S128x32x64_S128x64x64_S128x32x64_2_1_1_2_0_0 : DotDims S128x32x64 S128x64x64 S128x32x64 where
  lhsContracting := [2]
  rhsContracting := [1]
  lhsNonContracting := [1]
  rhsNonContracting := [2]
  lhsBatch := [0]
  rhsBatch := [0]
  wf := dot_S128x32x64_S128x64x64_S128x32x64_2_1_1_2_0_0_wf
def dot_S128x64x32_S128x32x64_S128x64x64_2_1_1_2_0_0 : DotDims S128x64x32 S128x32x64 S128x64x64 where
  lhsContracting := [2]
  rhsContracting := [1]
  lhsNonContracting := [1]
  rhsNonContracting := [2]
  lhsBatch := [0]
  rhsBatch := [0]
  wf := dot_S128x64x32_S128x32x64_S128x64x64_2_1_1_2_0_0_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1) S1x128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128x64x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S16x512x4096 : Shape := ⟨3, ![16, 512, 4096]⟩
abbrev S16x512x64x64 : Shape := ⟨4, ![16, 512, 64, 64]⟩
abbrev S16x512x32x2x64 : Shape := ⟨5, ![16, 512, 32, 2, 64]⟩
abbrev S16x512x32x64 : Shape := ⟨4, ![16, 512, 32, 64]⟩
abbrev S16x512x64x32 : Shape := ⟨4, ![16, 512, 64, 32]⟩
abbrev S16x512x64 : Shape := ⟨3, ![16, 512, 64]⟩
abbrev S16x512x64x1 : Shape := ⟨4, ![16, 512, 64, 1]⟩
abbrev S16x512x32 : Shape := ⟨3, ![16, 512, 32]⟩
abbrev S16x512x32x1 : Shape := ⟨4, ![16, 512, 32, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x4096x512, .f32⟩
  | .hbm, ⟨8, _⟩ => ⟨S1x1x512, .f32⟩
  | .hbm, ⟨9, _⟩ => ⟨S16x4096x512, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S_, .f32⟩
  | .hbm, ⟨14, _⟩ => ⟨S16x4096x512, .f32⟩
  | .hbm, ⟨15, _⟩ => ⟨S16x4096x512, .f32⟩
  | .hbm, ⟨16, _⟩ => ⟨S_, .f32⟩
  | .hbm, ⟨17, _⟩ => ⟨S16x4096x512, .f32⟩
  | .hbm, ⟨18, _⟩ => ⟨S16x4096x512, .f32⟩
  | .hbm, ⟨19, _⟩ => ⟨S16x512x4096, .f32⟩
  | .hbm, ⟨20, _⟩ => ⟨S16x512x64x64, .f32⟩
  | .hbm, ⟨21, _⟩ => ⟨S16x4096x512, .f32⟩
  | .hbm, ⟨22, _⟩ => ⟨S1x1x512, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S_, .f32⟩
  | .hbm, ⟨28, _⟩ => ⟨S16x4096x512, .f32⟩
  | .hbm, ⟨29, _⟩ => ⟨S16x4096x512, .f32⟩
  | .hbm, ⟨30, _⟩ => ⟨S_, .f32⟩
  | .hbm, ⟨31, _⟩ => ⟨S16x4096x512, .f32⟩
  | .hbm, ⟨32, _⟩ => ⟨S16x4096x512, .f32⟩
  | .hbm, ⟨33, _⟩ => ⟨S16x512x4096, .f32⟩
  | .hbm, ⟨34, _⟩ => ⟨S16x512x64x64, .f32⟩
  | .hbm, ⟨35, _⟩ => ⟨S16x4096x512, .f32⟩
  | .hbm, ⟨36, _⟩ => ⟨S1x1x512, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S_, .f32⟩
  | .hbm, ⟨42, _⟩ => ⟨S16x4096x512, .f32⟩
  | .hbm, ⟨43, _⟩ => ⟨S16x4096x512, .f32⟩
  | .hbm, ⟨44, _⟩ => ⟨S_, .f32⟩
  | .hbm, ⟨45, _⟩ => ⟨S16x4096x512, .f32⟩
  | .hbm, ⟨46, _⟩ => ⟨S16x4096x512, .f32⟩
  | .hbm, ⟨47, _⟩ => ⟨S16x512x4096, .f32⟩
  | .hbm, ⟨48, _⟩ => ⟨S16x512x64x64, .f32⟩
  | .hbm, ⟨49, _⟩ => ⟨S16x512x32x2x64, .f32⟩
  | .hbm, ⟨50, _⟩ => ⟨S_, .f32⟩
  | .hbm, ⟨51, _⟩ => ⟨S16x512x32x64, .f32⟩
  | .hbm, ⟨52, _⟩ => ⟨S_, .f32⟩
  | .hbm, ⟨53, _⟩ => ⟨S16x512x32x64, .f32⟩
  | .hbm, ⟨54, _⟩ => ⟨S16x512x32x64, .f32⟩
  | .hbm, ⟨55, _⟩ => ⟨S16x512x32x2x64, .f32⟩
  | .hbm, ⟨56, _⟩ => ⟨S_, .f32⟩
  | .hbm, ⟨57, _⟩ => ⟨S16x512x32x64, .f32⟩
  | .hbm, ⟨58, _⟩ => ⟨S_, .f32⟩
  | .hbm, ⟨59, _⟩ => ⟨S16x512x32x64, .f32⟩
  | .hbm, ⟨60, _⟩ => ⟨S16x512x32x64, .f32⟩
  | .hbm, ⟨61, _⟩ => ⟨S16x512x64x32, .f32⟩
  | .hbm, ⟨62, _⟩ => ⟨S_, .f32⟩
  | .hbm, ⟨63, _⟩ => ⟨S16x512x64x32, .f32⟩
  | .hbm, ⟨64, _⟩ => ⟨S16x512x64x32, .f32⟩
  | .hbm, ⟨65, _⟩ => ⟨S_, .f32⟩
  | .hbm, ⟨66, _⟩ => ⟨S16x512x64, .f32⟩
  | .hbm, ⟨67, _⟩ => ⟨S_, .f32⟩
  | .hbm, ⟨68, _⟩ => ⟨S16x512x64, .f32⟩
  | .hbm, ⟨69, _⟩ => ⟨S16x512x64, .f32⟩
  | .hbm, ⟨70, _⟩ => ⟨S16x512x64x1, .f32⟩
  | .hbm, ⟨71, _⟩ => ⟨S16x512x64x32, .f32⟩
  | .hbm, ⟨72, _⟩ => ⟨S16x512x64x32, .f32⟩
  | .hbm, ⟨73, _⟩ => ⟨S16x512x64x32, .f32⟩
  | .hbm, ⟨74, _⟩ => ⟨S_, .f32⟩
  | .hbm, ⟨75, _⟩ => ⟨S16x512x64, .f32⟩
  | .hbm, ⟨76, _⟩ => ⟨S16x512x64x1, .f32⟩
  | .hbm, ⟨77, _⟩ => ⟨S16x512x64x32, .f32⟩
  | .hbm, ⟨78, _⟩ => ⟨S16x512x64x32, .f32⟩
  | .hbm, ⟨79, _⟩ => ⟨S16x512x32x64, .f32⟩
  | .hbm, ⟨80, _⟩ => ⟨S_, .f32⟩
  | .hbm, ⟨81, _⟩ => ⟨S16x512x32x64, .f32⟩
  | .hbm, ⟨82, _⟩ => ⟨S16x512x32x64, .f32⟩
  | .hbm, ⟨83, _⟩ => ⟨S_, .f32⟩
  | .hbm, ⟨84, _⟩ => ⟨S16x512x32, .f32⟩
  | .hbm, ⟨85, _⟩ => ⟨S_, .f32⟩
  | .hbm, ⟨86, _⟩ => ⟨S16x512x32, .f32⟩
  | .hbm, ⟨87, _⟩ => ⟨S16x512x32, .f32⟩
  | .hbm, ⟨88, _⟩ => ⟨S16x512x32x1, .f32⟩
  | .hbm, ⟨89, _⟩ => ⟨S16x512x32x64, .f32⟩
  | .hbm, ⟨90, _⟩ => ⟨S16x512x32x64, .f32⟩
  | .hbm, ⟨91, _⟩ => ⟨S16x512x32x64, .f32⟩
  | .hbm, ⟨92, _⟩ => ⟨S_, .f32⟩
  | .hbm, ⟨93, _⟩ => ⟨S16x512x32, .f32⟩
  | .hbm, ⟨94, _⟩ => ⟨S16x512x32x1, .f32⟩
  | .hbm, ⟨95, _⟩ => ⟨S16x512x32x64, .f32⟩
  | .hbm, ⟨96, _⟩ => ⟨S16x512x32x64, .f32⟩
  | .hbm, ⟨97, _⟩ => ⟨S16x512x32x64, .f32⟩
  | .hbm, ⟨98, _⟩ => ⟨S16x512x64x64, .f32⟩
  | .hbm, ⟨99, _⟩ => ⟨S16x512x4096, .f32⟩
  | .hbm, ⟨100, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  transposes_S16x4096x512_S16x512x4096_0_2_1 : S16x4096x512.Transposes [0, 2, 1] S16x512x4096
  shapeCasts_S16x512x4096_S16x512x64x64 : S16x512x4096.ShapeCasts S16x512x64x64
  shapeCasts_S16x512x64x64_S16x512x32x2x64 : S16x512x64x64.ShapeCasts S16x512x32x2x64
  reducesTo_S16x512x32x2x64_S16x512x32x64_d3 : S16x512x32x2x64.ReducesTo [3] S16x512x32x64
  h_S_ : 0 < S_.numel
  bcast_S_S16x512x32x64 : S_.BroadcastsInDim S16x512x32x64 (![] : Fin 0 → Fin S16x512x32x64.rank)
  bcast_S_S16x512x64x32 : S_.BroadcastsInDim S16x512x64x32 (![] : Fin 0 → Fin S16x512x64x32.rank)
  reducesTo_S16x512x64x32_S16x512x64_d3 : S16x512x64x32.ReducesTo [3] S16x512x64
  bcast_S_S16x512x64 : S_.BroadcastsInDim S16x512x64 (![] : Fin 0 → Fin S16x512x64.rank)
  bcast_S16x512x64_S16x512x64x1_0_1_2 : S16x512x64.BroadcastsInDim S16x512x64x1 (![0, 1, 2] : Fin 3 → Fin S16x512x64x1.rank)
  bcast_S16x512x64x1_S16x512x64x32_0_1_2_3 : S16x512x64x1.BroadcastsInDim S16x512x64x32 (![0, 1, 2, 3] : Fin 4 → Fin S16x512x64x32.rank)
  reducesTo_S16x512x32x64_S16x512x32_d3 : S16x512x32x64.ReducesTo [3] S16x512x32
  bcast_S_S16x512x32 : S_.BroadcastsInDim S16x512x32 (![] : Fin 0 → Fin S16x512x32.rank)
  bcast_S16x512x32_S16x512x32x1_0_1_2 : S16x512x32.BroadcastsInDim S16x512x32x1 (![0, 1, 2] : Fin 3 → Fin S16x512x32x1.rank)
  bcast_S16x512x32x1_S16x512x32x64_0_1_2_3 : S16x512x32x1.BroadcastsInDim S16x512x32x64 (![0, 1, 2, 3] : Fin 4 → Fin S16x512x32x64.rank)
  shapeCasts_S16x512x64x64_S16x512x4096 : S16x512x64x64.ShapeCasts S16x512x4096
  transposes_S16x512x4096_S16x4096x512_0_2_1 : S16x512x4096.Transposes [0, 2, 1] S16x4096x512
  dot_S16x4096x512_S512x512_S16x4096x512_2_1_01_0_n_n_wf : DotDims.WF S16x4096x512 S512x512 S16x4096x512 [2] [1] [0, 1] [0] [] []
  dot_S16x512x64x64_S16x512x32x64_S16x512x64x32_3_3_2_2_01_01_wf : DotDims.WF S16x512x64x64 S16x512x32x64 S16x512x64x32 [3] [3] [2] [2] [0, 1] [0, 1]
  dot_S16x512x32x64_S16x512x64x64_S16x512x32x64_3_3_2_2_01_01_wf : DotDims.WF S16x512x32x64 S16x512x64x64 S16x512x32x64 [3] [3] [2] [2] [0, 1] [0, 1]
  dot_S16x512x32x64_S16x512x64x64_S16x512x32x64_3_2_2_3_01_01_wf : DotDims.WF S16x512x32x64 S16x512x64x64 S16x512x32x64 [3] [2] [2] [3] [0, 1] [0, 1]
  dot_S16x512x64x32_S16x512x32x64_S16x512x64x64_3_2_2_3_01_01_wf : DotDims.WF S16x512x64x32 S16x512x32x64 S16x512x64x64 [3] [2] [2] [3] [0, 1] [0, 1]

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf
def dot_S16x512x64x64_S16x512x32x64_S16x512x64x32_3_3_2_2_01_01 : DotDims S16x512x64x64 S16x512x32x64 S16x512x64x32 where
  lhsContracting := [3]
  rhsContracting := [3]
  lhsNonContracting := [2]
  rhsNonContracting := [2]
  lhsBatch := [0, 1]
  rhsBatch := [0, 1]
  wf := dot_S16x512x64x64_S16x512x32x64_S16x512x64x32_3_3_2_2_01_01_wf
def dot_S16x512x32x64_S16x512x64x64_S16x512x32x64_3_3_2_2_01_01 : DotDims S16x512x32x64 S16x512x64x64 S16x512x32x64 where
  lhsContracting := [3]
  rhsContracting := [3]
  lhsNonContracting := [2]
  rhsNonContracting := [2]
  lhsBatch := [0, 1]
  rhsBatch := [0, 1]
  wf := dot_S16x512x32x64_S16x512x64x64_S16x512x32x64_3_3_2_2_01_01_wf
def dot_S16x512x32x64_S16x512x64x64_S16x512x32x64_3_2_2_3_01_01 : DotDims S16x512x32x64 S16x512x64x64 S16x512x32x64 where
  lhsContracting := [3]
  rhsContracting := [2]
  lhsNonContracting := [2]
  rhsNonContracting := [3]
  lhsBatch := [0, 1]
  rhsBatch := [0, 1]
  wf := dot_S16x512x32x64_S16x512x64x64_S16x512x32x64_3_2_2_3_01_01_wf
def dot_S16x512x64x32_S16x512x32x64_S16x512x64x64_3_2_2_3_01_01 : DotDims S16x512x64x32 S16x512x32x64 S16x512x64x64 where
  lhsContracting := [3]
  rhsContracting := [2]
  lhsNonContracting := [2]
  rhsNonContracting := [3]
  lhsBatch := [0, 1]
  rhsBatch := [0, 1]
  wf := dot_S16x512x64x32_S16x512x32x64_S16x512x64x64_3_2_2_3_01_01_wf

class Facts : Prop extends Facts₀ where

variable [Facts]
-- ==== Proof.KernelRun.lean ====
/-
  The idealized kernel's run with its result named. Every weakly fair execution of the program ends with each
  unscoped buffer at the last boundary's contents: the launch memory folded through the first call's write-backs,
  the three reshapes, the second call's write-backs, and the final reshape and transpose. Read at the result buffer
  this names what the program returns; read at the arguments it gives back the launch contents.
-/
import proofs.«116702_j85564338471094_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the seven arguments as launched. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Result

end
-- ==== Proof.KernelProj.lean ====
/-
  The projection kernel's body, read at one element. Each of its three stores writes, at channel d and row n of the
  block, the logistic of the row's product with row d of the weight plus the bias at d: the block is the transpose
  of logistic (x Wᵀ + β). The three stores are one function of (x, W, β), applied to the three weight/bias pairs.
-/
import proofs.«116702_j85564338471094_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjBody

open Idealize.ShloMosaic Idealize.ShloMosaic.ValueIdx Idealize.SL.Sem
open Cert.KernelIdeal Cert.KernelIdeal.Gen

variable [Cert.KernelIdeal.Facts]

/-- The contraction of a row of the tokens with a row of the weight. -/
abbrev D0 : DotDims S1024x512 S512x512 S1024x512 := dot_S1024x512_S512x512_S1024x512_1_1_0_0_n_n

theorem lhs_free (j : S1024x512.Idx) (q : D0.contr.Idx) : (D0.lhsIdx j q 0).val = (j 0).val := by
  unfold DotDims.lhsIdx
  rw [dif_neg (show ¬(0 : Fin S1024x512.rank) ∈ D0.lhsBatch by decide), dif_pos (show (0 : Fin S1024x512.rank) ∈ D0.lhsNonContracting by decide)]
  rfl
theorem lhs_contr (j : S1024x512.Idx) (q : D0.contr.Idx) : (D0.lhsIdx j q 1).val = (q ⟨0, by decide⟩).val :=
  D0.lhsIdx_val_of_single rfl j q
theorem rhs_free (j : S1024x512.Idx) (q : D0.contr.Idx) : (D0.rhsIdx j q 0).val = (j 1).val := by
  unfold DotDims.rhsIdx
  rw [dif_neg (show ¬(0 : Fin S512x512.rank) ∈ D0.rhsBatch by decide), dif_pos (show (0 : Fin S512x512.rank) ∈ D0.rhsNonContracting by decide)]
  rfl
theorem rhs_contr (j : S1024x512.Idx) (q : D0.contr.Idx) : (D0.rhsIdx j q 1).val = (q ⟨0, by decide⟩).val :=
  D0.rhsIdx_val_of_single rfl j q

/-- The product into the zero accumulator, at row n and column d, is the sum over the shared axis. -/
theorem matmul_apply (l : FVec Ideal S1024x512 .bf16) (r : FVec Ideal S512x512 .bf16) (n : Fin 1024) (d : Fin 512) :
    matmul D0 none l r (constant S1024x512 .f32 0x00000000#32) (ix2 n d) = ∑ k : Fin 512, l (ix2 n k) * r (ix2 d k) := by
  simp only [matmul]
  rw [Ideal.matmul_constant_zero_apply, ← Equiv.sum_comp (ValueIdx.contrEquiv1 D0 512 rfl rfl).symm]
  refine Finset.sum_congr rfl fun k _ => ?_
  have hk := ValueIdx.contrEquiv1_symm_val D0 512 rfl rfl k
  have el : D0.lhsIdx (ix2 n d) ((ValueIdx.contrEquiv1 D0 512 rfl rfl).symm k) = ix2 n k := funext fun a => Fin.ext (by
    match a with
    | ⟨0, _⟩ => exact lhs_free _ _
    | ⟨1, _⟩ => exact (lhs_contr _ _).trans hk)
  have er : D0.rhsIdx (ix2 n d) ((ValueIdx.contrEquiv1 D0 512 rfl rfl).symm k) = ix2 d k := funext fun a => Fin.ext (by
    match a with
    | ⟨0, _⟩ => exact rhs_free _ _
    | ⟨1, _⟩ => exact (rhs_contr _ _).trans hk)
  rw [el, er]

/-- The first store's value at channel d, row n. -/
theorem proj_payload (x0 : Vec Ideal S1x1024x512 .f32) (w : Vec Ideal S512x512 .f32) (β : Vec Ideal S512 .f32)
    (d : Fin 512) (n : Fin 1024) :
    k0_pay3 x0 w β (ix3 (0 : Fin 1) d n)
      = Ideal.logistic ((∑ k : Fin 512, x0 (ix3 (0 : Fin 1) n k) * w (ix2 d k)) + β (ix1 d)) := by
  unfold k0_pay3 k0_pay2
  refine (shapeCast_ab_1ab_apply _ shapeCasts_S512x1024_S1x512x1024 (0 : Fin 1) d n).trans ?_
  refine (truncf_apply _ bitsLt_bf16_f32 (ix2 d n)).trans ?_
  refine (transpose_ix2_apply _ transposes_S1024x512_p1_0_S512x1024 d n).trans ?_
  show Ideal.logistic (_ + _) = _
  refine congrArg Ideal.logistic ?_
  refine congr (congrArg HAdd.hAdd ?_) ?_
  · refine (matmul_apply _ _ n d).trans ?_
    refine Finset.sum_congr rfl fun k _ => ?_
    refine congr (congrArg HMul.hMul ?_) rfl
    exact shapeCast_1ab_ab_apply x0 shapeCasts_S1x1024x512_S1024x512 n k
  · refine (broadcastTo_1b_ab_apply _ broadcasts_S1x512_S1024x512 n d).trans ?_
    exact shapeCast_a_1a_apply β shapeCasts_S512_S1x512 (0 : Fin 1) d

/-- The same at any index of the block, its coordinates named. -/
theorem proj_payload_idx (x0 : Vec Ideal S1x1024x512 .f32) (w : Vec Ideal S512x512 .f32) (β : Vec Ideal S512 .f32)
    (j : S1x512x1024.Idx) :
    k0_pay3 x0 w β j
      = Ideal.logistic ((∑ k : Fin 512, x0 (ix3 (0 : Fin 1) (⟨(j 2).val, (j 2).isLt⟩ : Fin 1024) k)
          * w (ix2 (⟨(j 1).val, (j 1).isLt⟩ : Fin 512) k)) + β (ix1 (⟨(j 1).val, (j 1).isLt⟩ : Fin 512))) := by
  have hj : j = ix3 (0 : Fin 1) (⟨(j 1).val, (j 1).isLt⟩ : Fin 512) (⟨(j 2).val, (j 2).isLt⟩ : Fin 1024) := by
    funext a; apply Fin.ext
    match a with
    | ⟨0, _⟩ => show (j 0).val = 0; have h : (j 0).val < 1 := (j 0).isLt; omega
    | ⟨1, _⟩ => rfl
    | ⟨2, _⟩ => rfl
  exact (congrArg (k0_pay3 x0 w β) hj).trans (proj_payload x0 w β _ _)

/-- The second store is the same function of its weight and bias. -/
theorem proj_payload' (x0 : Vec Ideal S1x1024x512 .f32) (w : Vec Ideal S512x512 .f32) (β : Vec Ideal S512 .f32) :
    k0_pay4 x0 w β = k0_pay3 x0 w β := rfl

/-- The third store, split over two payloads by the printed body, is the same function again. -/
theorem proj_payload'' (x0 : Vec Ideal S1x1024x512 .f32) (w : Vec Ideal S512x512 .f32) (β : Vec Ideal S512 .f32) :
    k0_pay1 (k0_pay5 x0 w) (k0_pay6 β) = k0_pay3 x0 w β := rfl

end Cert.KernelIdeal.ProjBody

end
-- ==== Proof.Spec.lean ====
/-
  The function both programs compute, written once over explicit coordinates on the extended reals.

  Three projections of the tokens, each logistic (x Wᵀ + β); each projection read per batch b and channel c
  as a 64 × 64 matrix whose entry (i, k) is the projection of token 64 i + k at channel c; per (b, c) the
  pooled double attention of those three matrices (attn): pool averages adjacent pairs of rows (a sum of two
  divided by the word of 2), softmax is exp (ℓ - m) / ∑ exp (ℓ - m) with m the row maximum folded from the
  word of -∞, the logits are the word of 1/√512 times a row-by-row product, and the two matrix products that
  follow are plain sums. The result at token n, channel c is entry (n / 64, n % 64) of the (b, c) matrix.
  Nothing here is evaluated: the float words stay as Ideal.ofBits .f32 _.
-/
import Idealize.ShloMosaic.PureOps.Ideal
import Idealize.ShloMosaic.PureOps.Ideal.Laws
import Idealize.ShloMosaic.Lib.ValueIdx

noncomputable section

namespace Cert.PoolAttn

open Idealize.ShloMosaic Idealize.ShloMosaic.ValueIdx

/-- The shapes of the arrays the specification speaks of. -/
abbrev SX : Shape := ⟨3, ![16, 4096, 512]⟩
abbrev SW : Shape := ⟨2, ![512, 512]⟩
abbrev SB : Shape := ⟨1, ![512]⟩
abbrev ST : Shape := ⟨3, ![16, 512, 4096]⟩
abbrev SH : Shape := ⟨4, ![16, 512, 64, 64]⟩

/-- Token 64 i + k: entry (i, k) of the 64 × 64 reading of the token axis. -/
abbrev tok (i k : Fin 64) : Fin 4096 := ⟨i.val * 64 + k.val, by have := i.isLt; have := k.isLt; omega⟩

/-- One projection at batch b, token n, output channel d. -/
def proj (x : SX.Idx → EReal) (W : SW.Idx → EReal) (β : SB.Idx → EReal) (b : Fin 16) (n : Fin 4096) (d : Fin 512) : EReal :=
  Ideal.logistic ((∑ k : Fin 512, x (ix3 b n k) * W (ix2 d k)) + β (ix1 d))

/-- The projection laid out channel-major, [16, 512, 4096]. -/
def projT (x : SX.Idx → EReal) (W : SW.Idx → EReal) (β : SB.Idx → EReal) : ST.Idx → EReal :=
  fun i => proj x W β ⟨(i 0).val, (i 0).isLt⟩ ⟨(i 2).val, (i 2).isLt⟩ ⟨(i 1).val, (i 1).isLt⟩

/-- The projection as per-(batch, channel) 64 × 64 matrices, [16, 512, 64, 64]. -/
def projS (x : SX.Idx → EReal) (W : SW.Idx → EReal) (β : SB.Idx → EReal) : SH.Idx → EReal :=
  fun i => proj x W β ⟨(i 0).val, (i 0).isLt⟩ (tok ⟨(i 2).val, (i 2).isLt⟩ ⟨(i 3).val, (i 3).isLt⟩) ⟨(i 1).val, (i 1).isLt⟩

/-- Row 2 i + p of a 64-row matrix. -/
abbrev row2 (i : Fin 32) (p : Fin 2) : Fin 64 := ⟨i.val * 2 + p.val, by have := i.isLt; have := p.isLt; omega⟩

/-- Adjacent pairs of rows averaged: 64 rows to 32. -/
def pool (A : Fin 64 → Fin 64 → EReal) (i : Fin 32) (k : Fin 64) : EReal :=
  Ideal.div (∑ p : Fin 2, A (row2 i p) k) (Ideal.ofBits .f32 0x40000000#32)

/-- A row's maximum, folded from the word of -∞ and compared with it once more. -/
def rowmax {n : Nat} (L : Fin n → EReal) : EReal :=
  max (Ideal.ofBits .f32 0xFF800000#32) ((Finset.univ : Finset (Fin n)).fold max (Ideal.ofBits .f32 0xFF800000#32) L)

/-- A row's softmax. -/
def softmax {n : Nat} (L : Fin n → EReal) (j : Fin n) : EReal :=
  Ideal.div (Ideal.exp (L j - rowmax L)) (∑ j' : Fin n, Ideal.exp (L j' - rowmax L))

/-- Scaled logits of the full rows of Q against the pooled rows of K. -/
def logitsQk (Q K : Fin 64 → Fin 64 → EReal) (i : Fin 64) (j : Fin 32) : EReal :=
  Ideal.ofBits .f32 0x3D3504F3#32 * ∑ k : Fin 64, Q i k * pool K j k

/-- Scaled logits of the pooled rows of Q against the full rows of K. -/
def logitsKq (Q K : Fin 64 → Fin 64 → EReal) (j : Fin 32) (l : Fin 64) : EReal :=
  Ideal.ofBits .f32 0x3D3504F3#32 * ∑ k : Fin 64, pool Q j k * K l k

/-- The pooled-row attention over the values: softmax (logitsKq) times V. -/
def kqv (Q K V : Fin 64 → Fin 64 → EReal) (j : Fin 32) (k : Fin 64) : EReal :=
  ∑ l : Fin 64, softmax (logitsKq Q K j) l * V l k

/-- The pooled double attention of three 64 × 64 matrices. -/
def attn (Q K V : Fin 64 → Fin 64 → EReal) (i k : Fin 64) : EReal :=
  ∑ j : Fin 32, softmax (logitsQk Q K i) j * kqv Q K V j k

/-- The attention applied per (batch, channel) to three [16, 512, 64, 64] arrays. -/
def attnArr (Qa Ka Va : SH.Idx → EReal) : SH.Idx → EReal := fun i =>
  attn (fun a k => Qa (ix4 (⟨(i 0).val, (i 0).isLt⟩ : Fin 16) (⟨(i 1).val, (i 1).isLt⟩ : Fin 512) a k))
    (fun a k => Ka (ix4 (⟨(i 0).val, (i 0).isLt⟩ : Fin 16) (⟨(i 1).val, (i 1).isLt⟩ : Fin 512) a k))
    (fun a k => Va (ix4 (⟨(i 0).val, (i 0).isLt⟩ : Fin 16) (⟨(i 1).val, (i 1).isLt⟩ : Fin 512) a k))
    ⟨(i 2).val, (i 2).isLt⟩ ⟨(i 3).val, (i 3).isLt⟩

/-- Back to token-major: entry (b, n, c) is entry (b, c, n / 64, n % 64). -/
def untok (A : SH.Idx → EReal) : SX.Idx → EReal := fun i =>
  A (ix4 (⟨(i 0).val, (i 0).isLt⟩ : Fin 16) (⟨(i 2).val, (i 2).isLt⟩ : Fin 512)
    (⟨(i 1).val / 64, by have h : (i 1).val < 4096 := (i 1).isLt; omega⟩ : Fin 64)
    (⟨(i 1).val % 64, Nat.mod_lt _ (by decide)⟩ : Fin 64))

/-- The whole result as one function of the seven argument arrays. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal :=
  untok (attnArr (projS x Wq bq) (projS x Wk bk) (projS x Wv bv))

end Cert.PoolAttn

end
-- ==== Proof.KernelProjArr.lean ====
/-
  The projection call's three result arrays as whole-array functions. Point (b, r) of the 16 × 4 grid reads rows
  1024 r … 1024 r + 1023 of batch b of the tokens and the whole weights and biases, and writes columns
  1024 r … 1024 r + 1023 of batch b of each channel-major result; the 64 blocks tile each result, so after the call each
  result array is the channel-major projection of the arrays the call found.
-/
import proofs.«116702_j85564338471094_2_alg».proof.Proof.Gen.KernelIdeal.Frame
import proofs.«116702_j85564338471094_2_alg».proof.Proof.KernelProj
import proofs.«116702_j85564338471094_2_alg».proof.Proof.Spec
import Idealize.ShloMosaic.Lib.Pipeline.Value

set_option maxRecDepth 16384

noncomputable section

namespace Cert.KernelIdeal.ProjArr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.ProjBody

variable [Cert.KernelIdeal.Facts]
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the token window moves with the result windows (its row block is their
    column block), the weights and biases stay at block zero, the three result windows move together. -/
theorem idx_facts : ∀ t : Fin cfg0.N,
    (win0_0.index t (0 : Fin 3) = win0_7.index t (0 : Fin 3) ∧ win0_0.index t (1 : Fin 3) = win0_7.index t (2 : Fin 3)
      ∧ win0_0.index t (2 : Fin 3) = 0)
    ∧ (win0_1.index t (0 : Fin 2) = 0 ∧ win0_1.index t (1 : Fin 2) = 0 ∧ win0_2.index t (0 : Fin 1) = 0)
    ∧ (win0_3.index t (0 : Fin 2) = 0 ∧ win0_3.index t (1 : Fin 2) = 0 ∧ win0_4.index t (0 : Fin 1) = 0)
    ∧ (win0_5.index t (0 : Fin 2) = 0 ∧ win0_5.index t (1 : Fin 2) = 0 ∧ win0_6.index t (0 : Fin 1) = 0)
    ∧ win0_7.index t (1 : Fin 3) = 0
    ∧ (win0_8.index t (0 : Fin 3) = win0_7.index t (0 : Fin 3) ∧ win0_8.index t (1 : Fin 3) = 0
      ∧ win0_8.index t (2 : Fin 3) = win0_7.index t (2 : Fin 3))
    ∧ (win0_9.index t (0 : Fin 3) = win0_7.index t (0 : Fin 3) ∧ win0_9.index t (1 : Fin 3) = 0
      ∧ win0_9.index t (2 : Fin 3) = win0_7.index t (2 : Fin 3)) :=
  (by decide +kernel : ∀ t : Fin grid0.N, _)

/-- Every block of a result array is some point's (the three result windows share one index map). -/
theorem idx_onto : ∀ (q0 : Fin 16) (q2 : Fin 4), ∃ t : Fin cfg0.N, win0_7.index t = ![q0.val, 0, q2.val] :=
  (by decide +kernel : ∀ (q0 : Fin 16) (q2 : Fin 4), ∃ t : Fin grid0.N, win0_7.index t = ![q0.val, 0, q2.val])

/-! ## Result window 7 -/

/-- What point t writes back through window 7 is block t of the channel-major projection of the arrays the call finds. -/
theorem flushed7_eq (c : Dev nD) (t : Fin cfg0.N) :
    (dat0 V c).flushed 7 t = ((cfg0.win 7).blk t).view.read (Elt Ideal)
      (Cert.PoolAttn.projT (V c main_arg0) (V c main_arg1) (V c main_arg2)) := by
  show (cfg0.win 7).cut (grid0.coords t) ((dat0 V c).after 7 t) = _
  rw [after0_7]
  unfold out0_7
  rw [View.canon_unit_zero hz3]
  simp only [View.ld_unit_zero (S := S1x1024x512) hz3, View.ld_unit_zero (S := S512x512) hz2, View.ld_unit_zero (S := S512) hz1]
  obtain ⟨⟨a0, a1, a2⟩, ⟨b1, b2, b3⟩, ⟨c1, c2, c3⟩, ⟨d1, d2, d3⟩, e7, ⟨f0, f1, f2⟩, ⟨g0, g1, g2⟩⟩ := idx_facts t
  refine funext fun (j : S1x512x1024.Idx) => ?_
  have hj0 : (j 0).val < 1 := (j 0).isLt
  refine (proj_payload_idx (iblk0 V c 0 t) (iblk0 V c 1 t) (iblk0 V c 2 t) j).trans ?_
  unfold Cert.PoolAttn.projT Cert.PoolAttn.proj
  refine congrArg Ideal.logistic ?_
  refine congr (congrArg HAdd.hAdd (Finset.sum_congr rfl fun k _ => congr (congrArg HMul.hMul ?_) ?_)) ?_
  · show V c main_arg0 (((cfg0.win 0).blk t).view.emb (ix3 (0 : Fin 1) (⟨(j 2).val, (j 2).isLt⟩ : Fin 1024) k)) = V c main_arg0 _
    refine congrArg (V c main_arg0) (funext fun a => Fin.ext ?_)
    match a with
    | ⟨0, _⟩ => show win0_0.index t (0 : Fin 3) * 1 + 1 * 0 = win0_7.index t (0 : Fin 3) * 1 + 1 * (j 0).val; omega
    | ⟨1, _⟩ => show win0_0.index t (1 : Fin 3) * 1024 + 1 * (j 2).val = win0_7.index t (2 : Fin 3) * 1024 + 1 * (j 2).val; omega
    | ⟨2, _⟩ => show win0_0.index t (2 : Fin 3) * 512 + 1 * k.val = k.val; omega
  · show V c main_arg1 (((cfg0.win 1).blk t).view.emb (ix2 (⟨(j 1).val, (j 1).isLt⟩ : Fin 512) k)) = V c main_arg1 _
    refine congrArg (V c main_arg1) (funext fun a => Fin.ext ?_)
    match a with
    | ⟨0, _⟩ => show win0_1.index t (0 : Fin 2) * 512 + 1 * (j 1).val = win0_7.index t (1 : Fin 3) * 512 + 1 * (j 1).val; omega
    | ⟨1, _⟩ => show win0_1.index t (1 : Fin 2) * 512 + 1 * k.val = k.val; omega
  · show V c main_arg2 (((cfg0.win 2).blk t).view.emb (ix1 (⟨(j 1).val, (j 1).isLt⟩ : Fin 512))) = V c main_arg2 _
    refine congrArg (V c main_arg2) (funext fun a => Fin.ext ?_)
    match a with
    | ⟨0, _⟩ => show win0_2.index t (0 : Fin 1) * 512 + 1 * (j 1).val = win0_7.index t (1 : Fin 3) * 512 + 1 * (j 1).val; omega

/-- An index of the result array is in point t's block iff each coordinate is in the block's range on its axis. -/
theorem mem_blk7 (t : Fin cfg0.N) (i : S16x512x4096.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v0_0).slice (win0_7.rect t)).set ↔ _
  rw [View.set_slice_whole, Rect.mem_set_unit]
  exact Iff.rfl

/-- The blocks tile the array: batch b, column n lies in the block of point (b, n / 1024). -/
theorem cover7 (i : S16x512x4096.Idx) : ∃ t : Fin cfg0.N, (cfg0.win 7).flush t = true ∧ i ∈ ((cfg0.win 7).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 2).val / 1024, by omega⟩
  have q0 : win0_7.index t (0 : Fin 3) = (i 0).val := congrFun ht 0
  have q1 : win0_7.index t (1 : Fin 3) = 0 := congrFun ht 1
  have q2 : win0_7.index t (2 : Fin 3) = (i 2).val / 1024 := congrFun ht 2
  obtain ⟨-, -, -, -, e7, ⟨f0, f1, f2⟩, ⟨g0, g1, g2⟩⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The array after the call. -/
theorem final7 (c : Dev nD) : (dat0 V c).arrAt 7 cfg0.N
    = Cert.PoolAttn.projT (V c main_arg0) (V c main_arg1) (V c main_arg2) :=
  (dat0 V c).arrAt_eq_of_cover 7 _ (fun t _ => flushed7_eq V c t) (cover7)

/-! ## Result window 8 -/

/-- What point t writes back through window 8 is block t of the channel-major projection of the arrays the call finds. -/
theorem flushed8_eq (c : Dev nD) (t : Fin cfg0.N) :
    (dat0 V c).flushed 8 t = ((cfg0.win 8).blk t).view.read (Elt Ideal)
      (Cert.PoolAttn.projT (V c main_arg0) (V c main_arg3) (V c main_arg4)) := by
  show (cfg0.win 8).cut (grid0.coords t) ((dat0 V c).after 8 t) = _
  rw [after0_8]
  unfold out0_8
  rw [View.canon_unit_zero hz3]
  simp only [View.ld_unit_zero (S := S1x1024x512) hz3, View.ld_unit_zero (S := S512x512) hz2, View.ld_unit_zero (S := S512) hz1]
  obtain ⟨⟨a0, a1, a2⟩, ⟨b1, b2, b3⟩, ⟨c1, c2, c3⟩, ⟨d1, d2, d3⟩, e7, ⟨f0, f1, f2⟩, ⟨g0, g1, g2⟩⟩ := idx_facts t
  refine funext fun (j : S1x512x1024.Idx) => ?_
  have hj0 : (j 0).val < 1 := (j 0).isLt
  refine ((congrFun (proj_payload' (iblk0 V c 0 t) (iblk0 V c 3 t) (iblk0 V c 4 t)) j).trans (proj_payload_idx (iblk0 V c 0 t) (iblk0 V c 3 t) (iblk0 V c 4 t) j)).trans ?_
  unfold Cert.PoolAttn.projT Cert.PoolAttn.proj
  refine congrArg Ideal.logistic ?_
  refine congr (congrArg HAdd.hAdd (Finset.sum_congr rfl fun k _ => congr (congrArg HMul.hMul ?_) ?_)) ?_
  · show V c main_arg0 (((cfg0.win 0).blk t).view.emb (ix3 (0 : Fin 1) (⟨(j 2).val, (j 2).isLt⟩ : Fin 1024) k)) = V c main_arg0 _
    refine congrArg (V c main_arg0) (funext fun a => Fin.ext ?_)
    match a with
    | ⟨0, _⟩ => show win0_0.index t (0 : Fin 3) * 1 + 1 * 0 = win0_8.index t (0 : Fin 3) * 1 + 1 * (j 0).val; omega
    | ⟨1, _⟩ => show win0_0.index t (1 : Fin 3) * 1024 + 1 * (j 2).val = win0_8.index t (2 : Fin 3) * 1024 + 1 * (j 2).val; omega
    | ⟨2, _⟩ => show win0_0.index t (2 : Fin 3) * 512 + 1 * k.val = k.val; omega
  · show V c main_arg3 (((cfg0.win 3).blk t).view.emb (ix2 (⟨(j 1).val, (j 1).isLt⟩ : Fin 512) k)) = V c main_arg3 _
    refine congrArg (V c main_arg3) (funext fun a => Fin.ext ?_)
    match a with
    | ⟨0, _⟩ => show win0_3.index t (0 : Fin 2) * 512 + 1 * (j 1).val = win0_8.index t (1 : Fin 3) * 512 + 1 * (j 1).val; omega
    | ⟨1, _⟩ => show win0_3.index t (1 : Fin 2) * 512 + 1 * k.val = k.val; omega
  · show V c main_arg4 (((cfg0.win 4).blk t).view.emb (ix1 (⟨(j 1).val, (j 1).isLt⟩ : Fin 512))) = V c main_arg4 _
    refine congrArg (V c main_arg4) (funext fun a => Fin.ext ?_)
    match a with
    | ⟨0, _⟩ => show win0_4.index t (0 : Fin 1) * 512 + 1 * (j 1).val = win0_8.index t (1 : Fin 3) * 512 + 1 * (j 1).val; omega

/-- An index of the result array is in point t's block iff each coordinate is in the block's range on its axis. -/
theorem mem_blk8 (t : Fin cfg0.N) (i : S16x512x4096.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v0_1).slice (win0_8.rect t)).set ↔ _
  rw [View.set_slice_whole, Rect.mem_set_unit]
  exact Iff.rfl

/-- The blocks tile the array: batch b, column n lies in the block of point (b, n / 1024). -/
theorem cover8 (i : S16x512x4096.Idx) : ∃ t : Fin cfg0.N, (cfg0.win 8).flush t = true ∧ i ∈ ((cfg0.win 8).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 2).val / 1024, by omega⟩
  have q0 : win0_7.index t (0 : Fin 3) = (i 0).val := congrFun ht 0
  have q1 : win0_7.index t (1 : Fin 3) = 0 := congrFun ht 1
  have q2 : win0_7.index t (2 : Fin 3) = (i 2).val / 1024 := congrFun ht 2
  obtain ⟨-, -, -, -, e7, ⟨f0, f1, f2⟩, ⟨g0, g1, g2⟩⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- The array after the call. -/
theorem final8 (c : Dev nD) : (dat0 V c).arrAt 8 cfg0.N
    = Cert.PoolAttn.projT (V c main_arg0) (V c main_arg3) (V c main_arg4) :=
  (dat0 V c).arrAt_eq_of_cover 8 _ (fun t _ => flushed8_eq V c t) (cover8)

/-! ## Result window 9 -/

/-- What point t writes back through window 9 is block t of the channel-major projection of the arrays the call finds. -/
theorem flushed9_eq (c : Dev nD) (t : Fin cfg0.N) :
    (dat0 V c).flushed 9 t = ((cfg0.win 9).blk t).view.read (Elt Ideal)
      (Cert.PoolAttn.projT (V c main_arg0) (V c main_arg5) (V c main_arg6)) := by
  show (cfg0.win 9).cut (grid0.coords t) ((dat0 V c).after 9 t) = _
  rw [after0_9]
  unfold out0_9
  rw [View.canon_unit_zero hz3]
  simp only [View.ld_unit_zero (S := S1x1024x512) hz3, View.ld_unit_zero (S := S512x512) hz2, View.ld_unit_zero (S := S512) hz1]
  obtain ⟨⟨a0, a1, a2⟩, ⟨b1, b2, b3⟩, ⟨c1, c2, c3⟩, ⟨d1, d2, d3⟩, e7, ⟨f0, f1, f2⟩, ⟨g0, g1, g2⟩⟩ := idx_facts t
  refine funext fun (j : S1x512x1024.Idx) => ?_
  have hj0 : (j 0).val < 1 := (j 0).isLt
  refine ((congrFun (proj_payload'' (iblk0 V c 0 t) (iblk0 V c 5 t) (iblk0 V c 6 t)) j).trans (proj_payload_idx (iblk0 V c 0 t) (iblk0 V c 5 t) (iblk0 V c 6 t) j)).trans ?_
  unfold Cert.PoolAttn.projT Cert.PoolAttn.proj
  refine congrArg Ideal.logistic ?_
  refine congr (congrArg HAdd.hAdd (Finset.sum_congr rfl fun k _ => congr (congrArg HMul.hMul ?_) ?_)) ?_
  · show V c main_arg0 (((cfg0.win 0).blk t).view.emb (ix3 (0 : Fin 1) (⟨(j 2).val, (j 2).isLt⟩ : Fin 1024) k)) = V c main_arg0 _
    refine congrArg (V c main_arg0) (funext fun a => Fin.ext ?_)
    match a with
    | ⟨0, _⟩ => show win0_0.index t (0 : Fin 3) * 1 + 1 * 0 = win0_9.index t (0 : Fin 3) * 1 + 1 * (j 0).val; omega
    | ⟨1, _⟩ => show win0_0.index t (1 : Fin 3) * 1024 + 1 * (j 2).val = win0_9.index t (2 : Fin 3) * 1024 + 1 * (j 2).val; omega
    | ⟨2, _⟩ => show win0_0.index t (2 : Fin 3) * 512 + 1 * k.val = k.val; omega
  · show V c main_arg5 (((cfg0.win 5).blk t).view.emb (ix2 (⟨(j 1).val, (j 1).isLt⟩ : Fin 512) k)) = V c main_arg5 _
    refine congrArg (V c main_arg5) (funext fun a => Fin.ext ?_)
    match a with
    | ⟨0, _⟩ => show win0_5.index t (0 : Fin 2) * 512 + 1 * (j 1).val = win0_9.index t (1 : Fin 3) * 512 + 1 * (j 1).val; omega
    | ⟨1, _⟩ => show win0_5.index t (1 : Fin 2) * 512 + 1 * k.val = k.val; omega
  · show V c main_arg6 (((cfg0.win 6).blk t).view.emb (ix1 (⟨(j 1).val, (j 1).isLt⟩ : Fin 512))) = V c main_arg6 _
    refine congrArg (V c main_arg6) (funext fun a => Fin.ext ?_)
    match a with
    | ⟨0, _⟩ => show win0_6.index t (0 : Fin 1) * 512 + 1 * (j 1).val = win0_9.index t (1 : Fin 3) * 512 + 1 * (j 1).val; omega

/-- An index of the result array is in point t's block iff each coordinate is in the block's range on its axis. -/
theorem mem_blk9 (t : Fin cfg0.N) (i : S16x512x4096.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v0_2).slice (win0_9.rect t)).set ↔ _
  rw [View.set_slice_whole, Rect.mem_set_unit]
  exact Iff.rfl

/-- The blocks tile the array: batch b, column n lies in the block of point (b, n / 1024). -/
theorem cover9 (i : S16x512x4096.Idx) : ∃ t : Fin cfg0.N, (cfg0.win 9).flush t = true ∧ i ∈ ((cfg0.win 9).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 2).val / 1024, by omega⟩
  have q0 : win0_7.index t (0 : Fin 3) = (i 0).val := congrFun ht 0
  have q1 : win0_7.index t (1 : Fin 3) = 0 := congrFun ht 1
  have q2 : win0_7.index t (2 : Fin 3) = (i 2).val / 1024 := congrFun ht 2
  obtain ⟨-, -, -, -, e7, ⟨f0, f1, f2⟩, ⟨g0, g1, g2⟩⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- The array after the call. -/
theorem final9 (c : Dev nD) : (dat0 V c).arrAt 9 cfg0.N
    = Cert.PoolAttn.projT (V c main_arg0) (V c main_arg5) (V c main_arg6) :=
  (dat0 V c).arrAt_eq_of_cover 9 _ (fun t _ => flushed9_eq V c t) (cover9)

end Cert.KernelIdeal.ProjArr

end
-- ==== Proof.AttnBody.lean ====
/-
  The attention kernel's body read at one index.

  The body loads one batch of 128 channels of three 64 x 64 matrices q, k, v. Per channel c it averages
  adjacent pairs of rows (a sum over a pair divided by the word of 2), forms two tables of scaled logits
  (rows of q against pooled rows of k, pooled rows of q against rows of k: a sum over the 64 columns times
  the word of 1/sqrt 512), turns each row of either table into a softmax (exp of the logit minus the row
  maximum, divided by the row's sum of those), multiplies the second table's softmax into v and the
  first table's softmax into that product. Every stage below is read at ONE index over explicit
  coordinates, as the corresponding function of the specification, with no algebra: the operand order and
  the float words are the same on both sides.
-/
import proofs.«116702_j85564338471094_2_alg».proof.Proof.Gen.KernelIdeal.Skeleton
import proofs.«116702_j85564338471094_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.AttnBody

open Idealize.ShloMosaic Idealize.ShloMosaic.ValueIdx Cert.KernelIdeal Cert.KernelIdeal.Gen

variable [Cert.KernelIdeal.Facts]

/-! ## Reduced indices with the dropped coordinate put back -/

/-- Over (c, j, k) of a [128, 32, 64] result, pair member p put back on axis 2 of [128, 32, 2, 64] is (c, j, p, k). -/
theorem lift_pair (h : S128x32x2x64.Reduces [2] S128x32x64) (c : Fin 128) (j : Fin 32) (k : Fin 64)
    (p : Fin (S128x32x2x64.size 2)) :
    h.lift (ix3 c j k) p = ix4 c j (⟨p.val, p.isLt⟩ : Fin 2) k := by
  funext a; apply Fin.ext
  fin_cases a <;> rfl

/-- Over (c, i) of a [128, 64] result, column j put back on axis 2 of [128, 64, 32] is (c, i, j). -/
theorem lift_row32 (h : S128x64x32.Reduces [2] S128x64) (c : Fin 128) (i : Fin 64)
    (j : Fin (S128x64x32.size 2)) :
    h.lift (ix2 c i) j = ix3 c i (⟨j.val, j.isLt⟩ : Fin 32) := by
  funext a; apply Fin.ext
  fin_cases a <;> rfl

/-- Over (c, j) of a [128, 32] result, column l put back on axis 2 of [128, 32, 64] is (c, j, l). -/
theorem lift_row64 (h : S128x32x64.Reduces [2] S128x32) (c : Fin 128) (j : Fin 32)
    (l : Fin (S128x32x64.size 2)) :
    h.lift (ix2 c j) l = ix3 c j (⟨l.val, l.isLt⟩ : Fin 64) := by
  funext a; apply Fin.ext
  fin_cases a <;> rfl

/-! ## The pooled rows -/

/-- A [128, 64, 64] stack viewed as [128, 32, 2, 64]: entry (c, j, p, k) is row 2 j + p of matrix c at column k. -/
theorem pairView_apply (A : FVec Ideal S128x64x64 .f32) (c : Fin 128) (j : Fin 32) (p : Fin 2) (k : Fin 64) :
    shapeCast S128x32x2x64 A shapeCasts_S128x64x64_S128x32x2x64 (ix4 c j p k)
      = A (ix3 c (Cert.PoolAttn.row2 j p) k) :=
  shapeCast_apply A shapeCasts_S128x64x64_S128x32x2x64 (ix4 c j p k) (ix3 c (Cert.PoolAttn.row2 j p) k) (by
    rw [Shape.rowMajor_val_three, Shape.rowMajor_val_four]
    show (c.val * 64 + (j.val * 2 + p.val)) * 64 + k.val = ((c.val * 32 + j.val) * 2 + p.val) * 64 + k.val
    omega)

/-- The pooling stage at (c, j, k): the two rows 2 j and 2 j + 1 of matrix c at column k, summed and divided by
    the word of 2. -/
theorem pool_apply (A : FVec Ideal S128x64x64 .f32) (c : Fin 128) (j : Fin 32) (k : Fin 64) :
    divf (multiReduction .add [2] S128x32x64 (shapeCast S128x32x2x64 A shapeCasts_S128x64x64_S128x32x2x64)
        0x00000000#32 reduces_S128x32x2x64_S128x32x64 (.inl rfl) rfl)
      (broadcast S128x32x64 (Scalar.ofBits (F := Ideal) .f32 0x40000000#32)) (ix3 c j k)
      = Cert.PoolAttn.pool (fun a b => A (ix3 c a b)) j k := by
  show Ideal.div _ (Ideal.ofBits .f32 0x40000000#32) = Ideal.div _ (Ideal.ofBits .f32 0x40000000#32)
  refine congrArg (fun x => Ideal.div x (Ideal.ofBits .f32 0x40000000#32)) ?_
  refine (Ideal.multiReduction_add_single _ _ reduces_S128x32x2x64_S128x32x64 _ _ (ix3 c j k)).trans ?_
  show ∑ p : Fin 2, _ = ∑ p : Fin 2, _
  refine Finset.sum_congr rfl fun p _ => ?_
  refine (congrArg (shapeCast S128x32x2x64 A shapeCasts_S128x64x64_S128x32x2x64)
    (lift_pair reduces_S128x32x2x64_S128x32x64 c j k p)).trans ?_
  exact pairView_apply A c j p k

/-! ## The four batched products, each into the zero accumulator, read at (c, x, y)

Channel c is the batch axis of both operands; x is the left operand's free coordinate, y the right operand's, and the
sum runs over the one contracted axis. -/

/-- Rows of a [128, 64, 64] stack against rows of a [128, 32, 64] stack, channel by channel. -/
abbrev D1 : DotDims S128x64x64 S128x32x64 S128x64x32 := dot_S128x64x64_S128x32x64_S128x64x32_2_2_1_1_0_0
theorem d1_l0 (j : S128x64x32.Idx) (q : D1.contr.Idx) : (D1.lhsIdx j q 0).val = (j 0).val := by
  unfold DotDims.lhsIdx
  rw [dif_pos (show (0 : Fin S128x64x64.rank) ∈ D1.lhsBatch by decide)]
  rfl
theorem d1_l1 (j : S128x64x32.Idx) (q : D1.contr.Idx) : (D1.lhsIdx j q 1).val = (j 1).val := by
  unfold DotDims.lhsIdx
  rw [dif_neg (show ¬(1 : Fin S128x64x64.rank) ∈ D1.lhsBatch by decide), dif_pos (show (1 : Fin S128x64x64.rank) ∈ D1.lhsNonContracting by decide)]
  rfl
theorem d1_l2 (j : S128x64x32.Idx) (q : D1.contr.Idx) : (D1.lhsIdx j q 2).val = (q ⟨0, by decide⟩).val :=
  D1.lhsIdx_val_of_single rfl j q
theorem d1_r0 (j : S128x64x32.Idx) (q : D1.contr.Idx) : (D1.rhsIdx j q 0).val = (j 0).val := by
  unfold DotDims.rhsIdx
  rw [dif_pos (show (0 : Fin S128x32x64.rank) ∈ D1.rhsBatch by decide)]
  rfl
theorem d1_r1 (j : S128x64x32.Idx) (q : D1.contr.Idx) : (D1.rhsIdx j q 1).val = (j 2).val := by
  unfold DotDims.rhsIdx
  rw [dif_neg (show ¬(1 : Fin S128x32x64.rank) ∈ D1.rhsBatch by decide), dif_pos (show (1 : Fin S128x32x64.rank) ∈ D1.rhsNonContracting by decide)]
  rfl
theorem d1_r2 (j : S128x64x32.Idx) (q : D1.contr.Idx) : (D1.rhsIdx j q 2).val = (q ⟨0, by decide⟩).val :=
  D1.rhsIdx_val_of_single rfl j q

/-- Entry (c, x, y) is the sum over the 64 columns of row x of the left matrix c times row y of the right matrix c. -/
theorem matmul1_apply (l : FVec Ideal S128x64x64 .bf16) (r : FVec Ideal S128x32x64 .bf16) (c : Fin 128) (x : Fin 64) (y : Fin 32) :
    matmul D1 none l r (constant S128x64x32 .f32 0x00000000#32) (ix3 c x y) = ∑ k : Fin 64, l (ix3 c x k) * r (ix3 c y k) := by
  simp only [matmul]
  rw [Ideal.matmul_constant_zero_apply, ← Equiv.sum_comp (ValueIdx.contrEquiv1 D1 64 rfl rfl).symm]
  refine Finset.sum_congr rfl fun k _ => ?_
  have hk := ValueIdx.contrEquiv1_symm_val D1 64 rfl rfl k
  have el : D1.lhsIdx (ix3 c x y) ((ValueIdx.contrEquiv1 D1 64 rfl rfl).symm k) = ix3 c x k := funext fun a => Fin.ext (by
    match a with
    | ⟨0, _⟩ => exact d1_l0 _ _
    | ⟨1, _⟩ => exact d1_l1 _ _
    | ⟨2, _⟩ => exact (d1_l2 _ _).trans hk)
  have er : D1.rhsIdx (ix3 c x y) ((ValueIdx.contrEquiv1 D1 64 rfl rfl).symm k) = ix3 c y k := funext fun a => Fin.ext (by
    match a with
    | ⟨0, _⟩ => exact d1_r0 _ _
    | ⟨1, _⟩ => exact d1_r1 _ _
    | ⟨2, _⟩ => exact (d1_r2 _ _).trans hk)
  rw [el, er]

/-- Rows of a [128, 32, 64] stack against rows of a [128, 64, 64] stack, channel by channel. -/
abbrev D2 : DotDims S128x32x64 S128x64x64 S128x32x64 := dot_S128x32x64_S128x64x64_S128x32x64_2_2_1_1_0_0
theorem d2_l0 (j : S128x32x64.Idx) (q : D2.contr.Idx) : (D2.lhsIdx j q 0).val = (j 0).val := by
  unfold DotDims.lhsIdx
  rw [dif_pos (show (0 : Fin S128x32x64.rank) ∈ D2.lhsBatch by decide)]
  rfl
theorem d2_l1 (j : S128x32x64.Idx) (q : D2.contr.Idx) : (D2.lhsIdx j q 1).val = (j 1).val := by
  unfold DotDims.lhsIdx
  rw [dif_neg (show ¬(1 : Fin S128x32x64.rank) ∈ D2.lhsBatch by decide), dif_pos (show (1 : Fin S128x32x64.rank) ∈ D2.lhsNonContracting by decide)]
  rfl
theorem d2_l2 (j : S128x32x64.Idx) (q : D2.contr.Idx) : (D2.lhsIdx j q 2).val = (q ⟨0, by decide⟩).val :=
  D2.lhsIdx_val_of_single rfl j q
theorem d2_r0 (j : S128x32x64.Idx) (q : D2.contr.Idx) : (D2.rhsIdx j q 0).val = (j 0).val := by
  unfold DotDims.rhsIdx
  rw [dif_pos (show (0 : Fin S128x64x64.rank) ∈ D2.rhsBatch by decide)]
  rfl
theorem d2_r1 (j : S128x32x64.Idx) (q : D2.contr.Idx) : (D2.rhsIdx j q 1).val = (j 2).val := by
  unfold DotDims.rhsIdx
  rw [dif_neg (show ¬(1 : Fin S128x64x64.rank) ∈ D2.rhsBatch by decide), dif_pos (show (1 : Fin S128x64x64.rank) ∈ D2.rhsNonContracting by decide)]
  rfl
theorem d2_r2 (j : S128x32x64.Idx) (q : D2.contr.Idx) : (D2.rhsIdx j q 2).val = (q ⟨0, by decide⟩).val :=
  D2.rhsIdx_val_of_single rfl j q

/-- Entry (c, x, y) is the sum over the 64 columns of row x of the left matrix c times row y of the right matrix c. -/
theorem matmul2_apply (l : FVec Ideal S128x32x64 .bf16) (r : FVec Ideal S128x64x64 .bf16) (c : Fin 128) (x : Fin 32) (y : Fin 64) :
    matmul D2 none l r (constant S128x32x64 .f32 0x00000000#32) (ix3 c x y) = ∑ k : Fin 64, l (ix3 c x k) * r (ix3 c y k) := by
  simp only [matmul]
  rw [Ideal.matmul_constant_zero_apply, ← Equiv.sum_comp (ValueIdx.contrEquiv1 D2 64 rfl rfl).symm]
  refine Finset.sum_congr rfl fun k _ => ?_
  have hk := ValueIdx.contrEquiv1_symm_val D2 64 rfl rfl k
  have el : D2.lhsIdx (ix3 c x y) ((ValueIdx.contrEquiv1 D2 64 rfl rfl).symm k) = ix3 c x k := funext fun a => Fin.ext (by
    match a with
    | ⟨0, _⟩ => exact d2_l0 _ _
    | ⟨1, _⟩ => exact d2_l1 _ _
    | ⟨2, _⟩ => exact (d2_l2 _ _).trans hk)
  have er : D2.rhsIdx (ix3 c x y) ((ValueIdx.contrEquiv1 D2 64 rfl rfl).symm k) = ix3 c y k := funext fun a => Fin.ext (by
    match a with
    | ⟨0, _⟩ => exact d2_r0 _ _
    | ⟨1, _⟩ => exact d2_r1 _ _
    | ⟨2, _⟩ => exact (d2_r2 _ _).trans hk)
  rw [el, er]

/-- The plain matrix product of a [128, 32, 64] stack with a [128, 64, 64] stack, channel by channel. -/
abbrev D3 : DotDims S128x32x64 S128x64x64 S128x32x64 := dot_S128x32x64_S128x64x64_S128x32x64_2_1_1_2_0_0
theorem d3_l0 (j : S128x32x64.Idx) (q : D3.contr.Idx) : (D3.lhsIdx j q 0).val = (j 0).val := by
  unfold DotDims.lhsIdx
  rw [dif_pos (show (0 : Fin S128x32x64.rank) ∈ D3.lhsBatch by decide)]
  rfl
theorem d3_l1 (j : S128x32x64.Idx) (q : D3.contr.Idx) : (D3.lhsIdx j q 1).val = (j 1).val := by
  unfold DotDims.lhsIdx
  rw [dif_neg (show ¬(1 : Fin S128x32x64.rank) ∈ D3.lhsBatch by decide), dif_pos (show (1 : Fin S128x32x64.rank) ∈ D3.lhsNonContracting by decide)]
  rfl
theorem d3_l2 (j : S128x32x64.Idx) (q : D3.contr.Idx) : (D3.lhsIdx j q 2).val = (q ⟨0, by decide⟩).val :=
  D3.lhsIdx_val_of_single rfl j q
theorem d3_r0 (j : S128x32x64.Idx) (q : D3.contr.Idx) : (D3.rhsIdx j q 0).val = (j 0).val := by
  unfold DotDims.rhsIdx
  rw [dif_pos (show (0 : Fin S128x64x64.rank) ∈ D3.rhsBatch by decide)]
  rfl
theorem d3_r1 (j : S128x32x64.Idx) (q : D3.contr.Idx) : (D3.rhsIdx j q 1).val = (q ⟨0, by decide⟩).val :=
  D3.rhsIdx_val_of_single rfl j q
theorem d3_r2 (j : S128x32x64.Idx) (q : D3.contr.Idx) : (D3.rhsIdx j q 2).val = (j 2).val := by
  unfold DotDims.rhsIdx
  rw [dif_neg (show ¬(2 : Fin S128x64x64.rank) ∈ D3.rhsBatch by decide), dif_pos (show (2 : Fin S128x64x64.rank) ∈ D3.rhsNonContracting by decide)]
  rfl

/-- Entry (c, x, y) is the sum over k of entry (x, k) of the left matrix c times entry (k, y) of the right matrix c. -/
theorem matmul3_apply (l : FVec Ideal S128x32x64 .bf16) (r : FVec Ideal S128x64x64 .bf16) (c : Fin 128) (x : Fin 32) (y : Fin 64) :
    matmul D3 none l r (constant S128x32x64 .f32 0x00000000#32) (ix3 c x y) = ∑ k : Fin 64, l (ix3 c x k) * r (ix3 c k y) := by
  simp only [matmul]
  rw [Ideal.matmul_constant_zero_apply, ← Equiv.sum_comp (ValueIdx.contrEquiv1 D3 64 rfl rfl).symm]
  refine Finset.sum_congr rfl fun k _ => ?_
  have hk := ValueIdx.contrEquiv1_symm_val D3 64 rfl rfl k
  have el : D3.lhsIdx (ix3 c x y) ((ValueIdx.contrEquiv1 D3 64 rfl rfl).symm k) = ix3 c x k := funext fun a => Fin.ext (by
    match a with
    | ⟨0, _⟩ => exact d3_l0 _ _
    | ⟨1, _⟩ => exact d3_l1 _ _
    | ⟨2, _⟩ => exact (d3_l2 _ _).trans hk)
  have er : D3.rhsIdx (ix3 c x y) ((ValueIdx.contrEquiv1 D3 64 rfl rfl).symm k) = ix3 c k y := funext fun a => Fin.ext (by
    match a with
    | ⟨0, _⟩ => exact d3_r0 _ _
    | ⟨1, _⟩ => exact (d3_r1 _ _).trans hk
    | ⟨2, _⟩ => exact d3_r2 _ _)
  rw [el, er]

/-- The plain matrix product of a [128, 64, 32] stack with a [128, 32, 64] stack, channel by channel. -/
abbrev D4 : DotDims S128x64x32 S128x32x64 S128x64x64 := dot_S128x64x32_S128x32x64_S128x64x64_2_1_1_2_0_0
theorem d4_l0 (j : S128x64x64.Idx) (q : D4.contr.Idx) : (D4.lhsIdx j q 0).val = (j 0).val := by
  unfold DotDims.lhsIdx
  rw [dif_pos (show (0 : Fin S128x64x32.rank) ∈ D4.lhsBatch by decide)]
  rfl
theorem d4_l1 (j : S128x64x64.Idx) (q : D4.contr.Idx) : (D4.lhsIdx j q 1).val = (j 1).val := by
  unfold DotDims.lhsIdx
  rw [dif_neg (show ¬(1 : Fin S128x64x32.rank) ∈ D4.lhsBatch by decide), dif_pos (show (1 : Fin S128x64x32.rank) ∈ D4.lhsNonContracting by decide)]
  rfl
theorem d4_l2 (j : S128x64x64.Idx) (q : D4.contr.Idx) : (D4.lhsIdx j q 2).val = (q ⟨0, by decide⟩).val :=
  D4.lhsIdx_val_of_single rfl j q
theorem d4_r0 (j : S128x64x64.Idx) (q : D4.contr.Idx) : (D4.rhsIdx j q 0).val = (j 0).val := by
  unfold DotDims.rhsIdx
  rw [dif_pos (show (0 : Fin S128x32x64.rank) ∈ D4.rhsBatch by decide)]
  rfl
theorem d4_r1 (j : S128x64x64.Idx) (q : D4.contr.Idx) : (D4.rhsIdx j q 1).val = (q ⟨0, by decide⟩).val :=
  D4.rhsIdx_val_of_single rfl j q
theorem d4_r2 (j : S128x64x64.Idx) (q : D4.contr.Idx) : (D4.rhsIdx j q 2).val = (j 2).val := by
  unfold DotDims.rhsIdx
  rw [dif_neg (show ¬(2 : Fin S128x32x64.rank) ∈ D4.rhsBatch by decide), dif_pos (show (2 : Fin S128x32x64.rank) ∈ D4.rhsNonContracting by decide)]
  rfl

/-- Entry (c, x, y) is the sum over k of entry (x, k) of the left matrix c times entry (k, y) of the right matrix c. -/
theorem matmul4_apply (l : FVec Ideal S128x64x32 .bf16) (r : FVec Ideal S128x32x64 .bf16) (c : Fin 128) (x : Fin 64) (y : Fin 64) :
    matmul D4 none l r (constant S128x64x64 .f32 0x00000000#32) (ix3 c x y) = ∑ k : Fin 32, l (ix3 c x k) * r (ix3 c k y) := by
  simp only [matmul]
  rw [Ideal.matmul_constant_zero_apply, ← Equiv.sum_comp (ValueIdx.contrEquiv1 D4 32 rfl rfl).symm]
  refine Finset.sum_congr rfl fun k _ => ?_
  have hk := ValueIdx.contrEquiv1_symm_val D4 32 rfl rfl k
  have el : D4.lhsIdx (ix3 c x y) ((ValueIdx.contrEquiv1 D4 32 rfl rfl).symm k) = ix3 c x k := funext fun a => Fin.ext (by
    match a with
    | ⟨0, _⟩ => exact d4_l0 _ _
    | ⟨1, _⟩ => exact d4_l1 _ _
    | ⟨2, _⟩ => exact (d4_l2 _ _).trans hk)
  have er : D4.rhsIdx (ix3 c x y) ((ValueIdx.contrEquiv1 D4 32 rfl rfl).symm k) = ix3 c k y := funext fun a => Fin.ext (by
    match a with
    | ⟨0, _⟩ => exact d4_r0 _ _
    | ⟨1, _⟩ => exact (d4_r1 _ _).trans hk
    | ⟨2, _⟩ => exact d4_r2 _ _)
  rw [el, er]

/-! ## The keepdims column forms -/

/-- A [128, 64] table cast to [128, 64, 1] reads (c, i) at (c, i, u). -/
theorem colCast64_apply (X : FVec Ideal S128x64 .f32) (c : Fin 128) (i : Fin 64) (u : Fin 1) :
    shapeCast S128x64x1 X shapeCasts_S128x64_S128x64x1 (ix3 c i u) = X (ix2 c i) :=
  shapeCast_apply X shapeCasts_S128x64_S128x64x1 (ix3 c i u) (ix2 c i) (by
    have hu : u.val = 0 := by omega
    rw [Shape.rowMajor_val_two, Shape.rowMajor_val_three]
    show c.val * 64 + i.val = (c.val * 64 + i.val) * 1 + u.val
    omega)

/-- A [128, 64, 1] column broadcast along 32 columns reads (c, i, 0) at (c, i, j). -/
theorem colBcast64_apply (Y : FVec Ideal S128x64x1 .f32) (c : Fin 128) (i : Fin 64) (j : Fin 32) :
    broadcastTo S128x64x32 Y broadcasts_S128x64x1_S128x64x32 (ix3 c i j) = Y (ix3 c i (0 : Fin 1)) := by
  refine broadcastTo_apply Y broadcasts_S128x64x1_S128x64x32 (ix3 c i j) (ix3 c i (0 : Fin 1)) fun ax => ?_
  match ax with
  | ⟨0, _⟩ => rfl
  | ⟨1, _⟩ => rfl
  | ⟨2, _⟩ => rfl

/-- A [128, 32] table cast to [128, 32, 1] reads (c, j) at (c, j, u). -/
theorem colCast32_apply (X : FVec Ideal S128x32 .f32) (c : Fin 128) (j : Fin 32) (u : Fin 1) :
    shapeCast S128x32x1 X shapeCasts_S128x32_S128x32x1 (ix3 c j u) = X (ix2 c j) :=
  shapeCast_apply X shapeCasts_S128x32_S128x32x1 (ix3 c j u) (ix2 c j) (by
    have hu : u.val = 0 := by omega
    rw [Shape.rowMajor_val_two, Shape.rowMajor_val_three]
    show c.val * 32 + j.val = (c.val * 32 + j.val) * 1 + u.val
    omega)

/-- A [128, 32, 1] column broadcast along 64 columns reads (c, j, 0) at (c, j, l). -/
theorem colBcast32_apply (Y : FVec Ideal S128x32x1 .f32) (c : Fin 128) (j : Fin 32) (l : Fin 64) :
    broadcastTo S128x32x64 Y broadcasts_S128x32x1_S128x32x64 (ix3 c j l) = Y (ix3 c j (0 : Fin 1)) := by
  refine broadcastTo_apply Y broadcasts_S128x32x1_S128x32x64 (ix3 c j l) (ix3 c j (0 : Fin 1)) fun ax => ?_
  match ax with
  | ⟨0, _⟩ => rfl
  | ⟨1, _⟩ => rfl
  | ⟨2, _⟩ => rfl

/-! ## The specification's row functions, opened once -/

theorem rowmax_unfold {n : Nat} (L : Fin n → EReal) :
    Cert.PoolAttn.rowmax L
      = max (Ideal.ofBits .f32 0xFF800000#32)
          ((Finset.univ : Finset (Fin n)).fold max (Ideal.ofBits .f32 0xFF800000#32) L) := by
  unfold Cert.PoolAttn.rowmax
  rfl

theorem softmax_unfold {n : Nat} (L : Fin n → EReal) (j : Fin n) :
    Cert.PoolAttn.softmax L j
      = Ideal.div (Ideal.exp (L j - Cert.PoolAttn.rowmax L)) (∑ j' : Fin n, Ideal.exp (L j' - Cert.PoolAttn.rowmax L)) := by
  unfold Cert.PoolAttn.softmax
  rfl

/-- exp of a difference, at an index. -/
theorem expSub_apply {s : Shape} (a b : FVec Ideal s .f32) (i : s.Idx) : exp (subf a b) i = Ideal.exp (a i - b i) := rfl

/-! ## The softmax of each row of a [128, 64, 32] table -/

/-- Comparing with a splat once more, at an index, for any word. -/
theorem maxSplat32_apply (w : BitVec 32) (M : FVec Ideal S128x64 .f32) (c : Fin 128) (r : Fin 64) :
    maximumf (broadcast S128x64 (Scalar.ofBits (F := Ideal) .f32 w)) M (ix2 c r)
      = max (Ideal.ofBits .f32 w) (M (ix2 c r)) := rfl

/-- A fold of max over the dropped axis's coordinates is the fold over Fin 32. -/
theorem foldMax32 (w : BitVec 32) (f : Fin (S128x64x32.size 2) → EReal) (g : Fin 32 → EReal)
    (hfg : ∀ j : Fin 32, f j = g j) :
    (Finset.univ : Finset (Fin (S128x64x32.size 2))).fold max (FloatOps.ofBits (F := Ideal) .f32 w) f
      = (Finset.univ : Finset (Fin 32)).fold max (Ideal.ofBits .f32 w) g := by
  have e : f = g := funext hfg
  subst e
  rfl

/-- A sum over the dropped axis's coordinates is the sum over Fin 32. -/
theorem sumCols32 (f : Fin (S128x64x32.size 2) → EReal) (g : Fin 32 → EReal) (hfg : ∀ j : Fin 32, f j = g j) :
    ∑ j : Fin (S128x64x32.size 2), f j = ∑ j : Fin 32, g j := by
  have e : f = g := funext hfg
  subst e
  rfl

/-- The row maxima, broadcast back along the rows: the maximum folded from the word of minus infinity and compared
    with that word once more. -/
def rowMax32 (L : FVec Ideal S128x64x32 .f32) : FVec Ideal S128x64x32 .f32 :=
  broadcastTo S128x64x32
    (shapeCast S128x64x1
      (maximumf (broadcast S128x64 (Scalar.ofBits (F := Ideal) .f32 0xFF800000#32))
        (multiReduction .maximumf [2] S128x64 L 0xFF800000#32 reduces_S128x64x32_S128x64 (.inl rfl) rfl))
      shapeCasts_S128x64_S128x64x1)
    broadcasts_S128x64x1_S128x64x32

/-- exp of each entry minus its row's maximum. -/
def expRows32 (L : FVec Ideal S128x64x32 .f32) : FVec Ideal S128x64x32 .f32 := exp (subf L (rowMax32 L))

/-- Each of those divided by its row's sum. -/
def softmaxRows32 (L : FVec Ideal S128x64x32 .f32) : FVec Ideal S128x64x32 .f32 :=
  divf (expRows32 L)
    (broadcastTo S128x64x32
      (shapeCast S128x64x1
        (multiReduction .add [2] S128x64 (expRows32 L) 0x00000000#32 reduces_S128x64x32_S128x64 (.inl rfl) rfl)
        shapeCasts_S128x64_S128x64x1)
      broadcasts_S128x64x1_S128x64x32)

theorem rowMax32_apply (L : FVec Ideal S128x64x32 .f32) (c : Fin 128) (r : Fin 64) (j : Fin 32) :
    rowMax32 L (ix3 c r j) = Cert.PoolAttn.rowmax (fun j' : Fin 32 => L (ix3 c r j')) := by
  unfold rowMax32
  refine (colBcast64_apply _ c r j).trans ((colCast64_apply _ c r (0 : Fin 1)).trans ?_)
  refine (maxSplat32_apply 0xFF800000#32 _ c r).trans ?_
  refine Eq.trans ?_ (rowmax_unfold _).symm
  refine congrArg (max (Ideal.ofBits .f32 0xFF800000#32)) ?_
  refine (Ideal.multiReduction_maximumf_single L _ reduces_S128x64x32_S128x64 _ _ (ix2 c r)).trans ?_
  exact foldMax32 0xFF800000#32 _ _ fun j' => congrArg L (lift_row32 reduces_S128x64x32_S128x64 c r j')

theorem expRows32_apply (L : FVec Ideal S128x64x32 .f32) (c : Fin 128) (r : Fin 64) (j : Fin 32) :
    expRows32 L (ix3 c r j)
      = Ideal.exp (L (ix3 c r j) - Cert.PoolAttn.rowmax (fun j' : Fin 32 => L (ix3 c r j'))) := by
  unfold expRows32
  refine (expSub_apply L (rowMax32 L) (ix3 c r j)).trans ?_
  rw [rowMax32_apply]

/-- Row r of matrix c of the table, turned into its softmax, at column j. -/
theorem softmaxRows32_apply (L : FVec Ideal S128x64x32 .f32) (c : Fin 128) (r : Fin 64) (j : Fin 32) :
    softmaxRows32 L (ix3 c r j) = Cert.PoolAttn.softmax (fun j' : Fin 32 => L (ix3 c r j')) j := by
  unfold softmaxRows32
  refine (divf_apply _ _ (ix3 c r j)).trans ?_
  refine Eq.trans ?_ (softmax_unfold _ j).symm
  refine congr (congrArg Ideal.div (expRows32_apply L c r j)) ?_
  refine (colBcast64_apply _ c r j).trans ((colCast64_apply _ c r (0 : Fin 1)).trans ?_)
  refine (Ideal.multiReduction_add_single (expRows32 L) _ reduces_S128x64x32_S128x64 _ _ (ix2 c r)).trans ?_
  exact sumCols32 _ _ fun j' =>
    (congrArg (expRows32 L) (lift_row32 reduces_S128x64x32_S128x64 c r j')).trans (expRows32_apply L c r j')

/-! ## The softmax of each row of a [128, 32, 64] table -/

/-- Comparing with a splat once more, at an index, for any word. -/
theorem maxSplat64_apply (w : BitVec 32) (M : FVec Ideal S128x32 .f32) (c : Fin 128) (r : Fin 32) :
    maximumf (broadcast S128x32 (Scalar.ofBits (F := Ideal) .f32 w)) M (ix2 c r)
      = max (Ideal.ofBits .f32 w) (M (ix2 c r)) := rfl

/-- A fold of max over the dropped axis's coordinates is the fold over Fin 64. -/
theorem foldMax64 (w : BitVec 32) (f : Fin (S128x32x64.size 2) → EReal) (g : Fin 64 → EReal)
    (hfg : ∀ j : Fin 64, f j = g j) :
    (Finset.univ : Finset (Fin (S128x32x64.size 2))).fold max (FloatOps.ofBits (F := Ideal) .f32 w) f
      = (Finset.univ : Finset (Fin 64)).fold max (Ideal.ofBits .f32 w) g := by
  have e : f = g := funext hfg
  subst e
  rfl

/-- A sum over the dropped axis's coordinates is the sum over Fin 64. -/
theorem sumCols64 (f : Fin (S128x32x64.size 2) → EReal) (g : Fin 64 → EReal) (hfg : ∀ j : Fin 64, f j = g j) :
    ∑ j : Fin (S128x32x64.size 2), f j = ∑ j : Fin 64, g j := by
  have e : f = g := funext hfg
  subst e
  rfl

/-- The row maxima, broadcast back along the rows: the maximum folded from the word of minus infinity and compared
    with that word once more. -/
def rowMax64 (L : FVec Ideal S128x32x64 .f32) : FVec Ideal S128x32x64 .f32 :=
  broadcastTo S128x32x64
    (shapeCast S128x32x1
      (maximumf (broadcast S128x32 (Scalar.ofBits (F := Ideal) .f32 0xFF800000#32))
        (multiReduction .maximumf [2] S128x32 L 0xFF800000#32 reduces_S128x32x64_S128x32 (.inl rfl) rfl))
      shapeCasts_S128x32_S128x32x1)
    broadcasts_S128x32x1_S128x32x64

/-- exp of each entry minus its row's maximum. -/
def expRows64 (L : FVec Ideal S128x32x64 .f32) : FVec Ideal S128x32x64 .f32 := exp (subf L (rowMax64 L))

/-- Each of those divided by its row's sum. -/
def softmaxRows64 (L : FVec Ideal S128x32x64 .f32) : FVec Ideal S128x32x64 .f32 :=
  divf (expRows64 L)
    (broadcastTo S128x32x64
      (shapeCast S128x32x1
        (multiReduction .add [2] S128x32 (expRows64 L) 0x00000000#32 reduces_S128x32x64_S128x32 (.inl rfl) rfl)
        shapeCasts_S128x32_S128x32x1)
      broadcasts_S128x32x1_S128x32x64)

theorem rowMax64_apply (L : FVec Ideal S128x32x64 .f32) (c : Fin 128) (r : Fin 32) (j : Fin 64) :
    rowMax64 L (ix3 c r j) = Cert.PoolAttn.rowmax (fun j' : Fin 64 => L (ix3 c r j')) := by
  unfold rowMax64
  refine (colBcast32_apply _ c r j).trans ((colCast32_apply _ c r (0 : Fin 1)).trans ?_)
  refine (maxSplat64_apply 0xFF800000#32 _ c r).trans ?_
  refine Eq.trans ?_ (rowmax_unfold _).symm
  refine congrArg (max (Ideal.ofBits .f32 0xFF800000#32)) ?_
  refine (Ideal.multiReduction_maximumf_single L _ reduces_S128x32x64_S128x32 _ _ (ix2 c r)).trans ?_
  exact foldMax64 0xFF800000#32 _ _ fun j' => congrArg L (lift_row64 reduces_S128x32x64_S128x32 c r j')

theorem expRows64_apply (L : FVec Ideal S128x32x64 .f32) (c : Fin 128) (r : Fin 32) (j : Fin 64) :
    expRows64 L (ix3 c r j)
      = Ideal.exp (L (ix3 c r j) - Cert.PoolAttn.rowmax (fun j' : Fin 64 => L (ix3 c r j'))) := by
  unfold expRows64
  refine (expSub_apply L (rowMax64 L) (ix3 c r j)).trans ?_
  rw [rowMax64_apply]

/-- Row r of matrix c of the table, turned into its softmax, at column j. -/
theorem softmaxRows64_apply (L : FVec Ideal S128x32x64 .f32) (c : Fin 128) (r : Fin 32) (j : Fin 64) :
    softmaxRows64 L (ix3 c r j) = Cert.PoolAttn.softmax (fun j' : Fin 64 => L (ix3 c r j')) j := by
  unfold softmaxRows64
  refine (divf_apply _ _ (ix3 c r j)).trans ?_
  refine Eq.trans ?_ (softmax_unfold _ j).symm
  refine congr (congrArg Ideal.div (expRows64_apply L c r j)) ?_
  refine (colBcast32_apply _ c r j).trans ((colCast32_apply _ c r (0 : Fin 1)).trans ?_)
  refine (Ideal.multiReduction_add_single (expRows64 L) _ reduces_S128x32x64_S128x32 _ _ (ix2 c r)).trans ?_
  exact sumCols64 _ _ fun j' =>
    (congrArg (expRows64 L) (lift_row64 reduces_S128x32x64_S128x32 c r j')).trans (expRows64_apply L c r j')

/-! ## The loaded blocks, the splats, and the specification's functions opened once -/

/-- A loaded block viewed as a stack of 128 matrices: entry (c, a, b) is entry (0, c, a, b) of the block. -/
theorem pay2_apply (x : Vec Ideal S1x128x64x64 .bf16) (c : Fin 128) (a b : Fin 64) :
    k1_pay2 x (ix3 c a b) = x (ix4 (0 : Fin 1) c a b) :=
  shapeCast_1abc_abc_apply x shapeCasts_S1x128x64x64_S128x64x64 c a b
theorem pay3_apply (x : Vec Ideal S1x128x64x64 .bf16) (c : Fin 128) (a b : Fin 64) :
    k1_pay3 x (ix3 c a b) = x (ix4 (0 : Fin 1) c a b) :=
  shapeCast_1abc_abc_apply x shapeCasts_S1x128x64x64_S128x64x64 c a b
theorem pay4_apply (x : Vec Ideal S1x128x64x64 .bf16) (c : Fin 128) (a b : Fin 64) :
    k1_pay4 x (ix3 c a b) = x (ix4 (0 : Fin 1) c a b) :=
  shapeCast_1abc_abc_apply x shapeCasts_S1x128x64x64_S128x64x64 c a b

/-- A splat of a word reads that word's value everywhere. -/
theorem splat_apply {s : Shape} (w : BitVec 32) (i : s.Idx) :
    broadcast s (Scalar.ofBits (F := Ideal) .f32 w) i = Ideal.ofBits .f32 w := rfl

/-- A product with a splat on the left, at an index, for any word. -/
theorem scaleSplat_apply {s : Shape} (w : BitVec 32) (X : FVec Ideal s .f32) (i : s.Idx) :
    mulf (broadcast s (Scalar.ofBits (F := Ideal) .f32 w)) X i = Ideal.ofBits .f32 w * X i := rfl

theorem logitsQk_unfold (Q K : Fin 64 → Fin 64 → EReal) (i : Fin 64) (j : Fin 32) :
    Cert.PoolAttn.logitsQk Q K i j
      = Ideal.ofBits .f32 0x3D3504F3#32 * ∑ k : Fin 64, Q i k * Cert.PoolAttn.pool K j k := rfl
theorem logitsKq_unfold (Q K : Fin 64 → Fin 64 → EReal) (j : Fin 32) (l : Fin 64) :
    Cert.PoolAttn.logitsKq Q K j l
      = Ideal.ofBits .f32 0x3D3504F3#32 * ∑ k : Fin 64, Cert.PoolAttn.pool Q j k * K l k := rfl
theorem kqv_unfold (Q K V : Fin 64 → Fin 64 → EReal) (j : Fin 32) (k : Fin 64) :
    Cert.PoolAttn.kqv Q K V j k
      = ∑ l : Fin 64, Cert.PoolAttn.softmax (Cert.PoolAttn.logitsKq Q K j) l * V l k := rfl
theorem attn_unfold (Q K V : Fin 64 → Fin 64 → EReal) (i k : Fin 64) :
    Cert.PoolAttn.attn Q K V i k
      = ∑ j : Fin 32, Cert.PoolAttn.softmax (Cert.PoolAttn.logitsQk Q K i) j * Cert.PoolAttn.kqv Q K V j k := rfl

/-! ## The pooled rows of a loaded block -/

/-- The pooling stage as one function of a [128, 64, 64] stack. -/
def poolRows (A : FVec Ideal S128x64x64 .f32) : FVec Ideal S128x32x64 .f32 :=
  divf (multiReduction .add [2] S128x32x64 (shapeCast S128x32x2x64 A shapeCasts_S128x64x64_S128x32x2x64)
      0x00000000#32 reduces_S128x32x2x64_S128x32x64 (.inl rfl) rfl)
    (broadcast S128x32x64 (Scalar.ofBits (F := Ideal) .f32 0x40000000#32))

theorem poolRows_apply (A : FVec Ideal S128x64x64 .f32) (c : Fin 128) (j : Fin 32) (k : Fin 64) :
    poolRows A (ix3 c j k) = Cert.PoolAttn.pool (fun a b => A (ix3 c a b)) j k := pool_apply A c j k

/-- The pooled rows of a block's stack X (widened, pooled, narrowed: no change of value), at (c, j, k), are the
    specification's pooled rows of matrix c of the block. -/
theorem pooledBlock_apply (X : FVec Ideal S128x64x64 .bf16) (x : Vec Ideal S1x128x64x64 .bf16) (c : Fin 128)
    (hX : ∀ a b : Fin 64, X (ix3 c a b) = x (ix4 (0 : Fin 1) c a b)) (j : Fin 32) (k : Fin 64) :
    truncf .bf16 (poolRows (extf .f32 X bitsLt_bf16_f32)) bitsLt_bf16_f32 (ix3 c j k)
      = Cert.PoolAttn.pool (fun a b => x (ix4 (0 : Fin 1) c a b)) j k :=
  (truncf_apply _ bitsLt_bf16_f32 (ix3 c j k)).trans
    ((poolRows_apply _ c j k).trans
      (congrArg (fun K : Fin 64 → Fin 64 → EReal => Cert.PoolAttn.pool K j k)
        (funext fun a => funext fun b => (extf_apply X bitsLt_bf16_f32 (ix3 c a b)).trans (hX a b))))

/-! ## The two tables of logits -/

/-- Rows of q against the pooled rows of k, scaled. -/
def logitsQkV (q k : Vec Ideal S1x128x64x64 .bf16) : FVec Ideal S128x64x32 .f32 :=
  mulf (broadcast S128x64x32 (Scalar.ofBits (F := Ideal) .f32 0x3D3504F3#32))
    (matmul D1 none (k1_pay2 q) (truncf .bf16 (poolRows (extf .f32 (k1_pay3 k) bitsLt_bf16_f32)) bitsLt_bf16_f32)
      (constant (F := Ideal) S128x64x32 .f32 0x00000000#32))

theorem logitsQkV_apply (q k : Vec Ideal S1x128x64x64 .bf16) (c : Fin 128) (i : Fin 64) (j : Fin 32) :
    logitsQkV q k (ix3 c i j)
      = Cert.PoolAttn.logitsQk (fun a b => q (ix4 (0 : Fin 1) c a b)) (fun a b => k (ix4 (0 : Fin 1) c a b)) i j := by
  unfold logitsQkV
  refine (scaleSplat_apply 0x3D3504F3#32 _ (ix3 c i j)).trans ?_
  refine Eq.trans ?_ (logitsQk_unfold _ _ i j).symm
  refine congrArg (fun z => Ideal.ofBits .f32 0x3D3504F3#32 * z) ?_
  refine (matmul1_apply _ _ c i j).trans ?_
  refine Finset.sum_congr rfl fun kk _ => ?_
  exact congr (congrArg HMul.hMul (pay2_apply q c i kk)) (pooledBlock_apply (k1_pay3 k) k c (pay3_apply k c) j kk)

/-- The pooled rows of q against the rows of k. -/
theorem pay6_eq (q k : Vec Ideal S1x128x64x64 .bf16) :
    k1_pay6 q k
      = matmul D2 none (truncf .bf16 (poolRows (extf .f32 (k1_pay2 q) bitsLt_bf16_f32)) bitsLt_bf16_f32) (k1_pay3 k)
          (constant (F := Ideal) S128x32x64 .f32 0x00000000#32) := rfl

theorem pay6_apply (q k : Vec Ideal S1x128x64x64 .bf16) (c : Fin 128) (j : Fin 32) (l : Fin 64) :
    k1_pay6 q k (ix3 c j l)
      = ∑ kk : Fin 64, Cert.PoolAttn.pool (fun a b => q (ix4 (0 : Fin 1) c a b)) j kk * k (ix4 (0 : Fin 1) c l kk) := by
  rw [pay6_eq]
  refine (matmul2_apply _ _ c j l).trans ?_
  refine Finset.sum_congr rfl fun kk _ => ?_
  exact congr (congrArg HMul.hMul (pooledBlock_apply (k1_pay2 q) q c (pay2_apply q c) j kk)) (pay3_apply k c l kk)

/-- The same, scaled. -/
def logitsKqV (q k : Vec Ideal S1x128x64x64 .bf16) : FVec Ideal S128x32x64 .f32 :=
  mulf (k1_pay7 (F := Ideal)) (k1_pay6 q k)

theorem pay7_apply (i : S128x32x64.Idx) : k1_pay7 (F := Ideal) i = Ideal.ofBits .f32 0x3D3504F3#32 :=
  splat_apply 0x3D3504F3#32 i

theorem logitsKqV_apply (q k : Vec Ideal S1x128x64x64 .bf16) (c : Fin 128) (j : Fin 32) (l : Fin 64) :
    logitsKqV q k (ix3 c j l)
      = Cert.PoolAttn.logitsKq (fun a b => q (ix4 (0 : Fin 1) c a b)) (fun a b => k (ix4 (0 : Fin 1) c a b)) j l := by
  unfold logitsKqV
  refine (mulf_apply _ _ (ix3 c j l)).trans ?_
  refine Eq.trans ?_ (logitsKq_unfold _ _ j l).symm
  exact congr (congrArg HMul.hMul (pay7_apply (ix3 c j l))) (pay6_apply q k c j l)

/-! ## The two products with the softmax tables -/

/-- The first table's softmax is what the body keeps of it. -/
theorem pay5_eq (q k : Vec Ideal S1x128x64x64 .bf16) :
    k1_pay5 q k = truncf .bf16 (softmaxRows32 (logitsQkV q k)) bitsLt_bf16_f32 := rfl

theorem pay5_apply (q k : Vec Ideal S1x128x64x64 .bf16) (c : Fin 128) (i : Fin 64) (j : Fin 32) :
    k1_pay5 q k (ix3 c i j)
      = Cert.PoolAttn.softmax
          (Cert.PoolAttn.logitsQk (fun a b => q (ix4 (0 : Fin 1) c a b)) (fun a b => k (ix4 (0 : Fin 1) c a b)) i) j := by
  rw [pay5_eq]
  refine (truncf_apply _ bitsLt_bf16_f32 (ix3 c i j)).trans ((softmaxRows32_apply _ c i j).trans ?_)
  exact congrArg (fun L : Fin 32 → EReal => Cert.PoolAttn.softmax L j) (funext fun j' => logitsQkV_apply q k c i j')

/-- The second table's softmax times v. -/
def kqvV (q k v : Vec Ideal S1x128x64x64 .bf16) : FVec Ideal S128x32x64 .f32 :=
  matmul D3 none (truncf .bf16 (softmaxRows64 (logitsKqV q k)) bitsLt_bf16_f32) (k1_pay4 v)
    (constant (F := Ideal) S128x32x64 .f32 0x00000000#32)

theorem kqvV_apply (q k v : Vec Ideal S1x128x64x64 .bf16) (c : Fin 128) (j : Fin 32) (kk : Fin 64) :
    kqvV q k v (ix3 c j kk)
      = Cert.PoolAttn.kqv (fun a b => q (ix4 (0 : Fin 1) c a b)) (fun a b => k (ix4 (0 : Fin 1) c a b))
          (fun a b => v (ix4 (0 : Fin 1) c a b)) j kk := by
  unfold kqvV
  refine (matmul3_apply _ _ c j kk).trans ?_
  refine Eq.trans ?_ (kqv_unfold _ _ _ j kk).symm
  refine Finset.sum_congr rfl fun l _ => ?_
  refine congr (congrArg HMul.hMul ?_) (pay4_apply v c l kk)
  refine (truncf_apply _ bitsLt_bf16_f32 (ix3 c j l)).trans ((softmaxRows64_apply _ c j l).trans ?_)
  exact congrArg (fun L : Fin 64 → EReal => Cert.PoolAttn.softmax L l) (funext fun l' => logitsKqV_apply q k c j l')

/-- What the body stores, as the last product over the pieces above. -/
theorem pay1_eq (q k v : Vec Ideal S1x128x64x64 .bf16) :
    k1_pay1 (k1_pay4 v) (k1_pay5 q k) (k1_pay6 q k) (k1_pay7 (F := Ideal))
      = shapeCast S1x128x64x64
          (matmul D4 none (k1_pay5 q k) (truncf .bf16 (kqvV q k v) bitsLt_bf16_f32)
            (constant (F := Ideal) S128x64x64 .f32 0x00000000#32))
          shapeCasts_S128x64x64_S1x128x64x64 := rfl

/-- THE BODY'S STORE AT (0, c, i, kk): the pooled double attention of matrix c of the three loaded blocks. -/
theorem attn_payload (q k v : Vec Ideal S1x128x64x64 .bf16) (c : Fin 128) (i kk : Fin 64) :
    k1_pay1 (k1_pay4 v) (k1_pay5 q k) (k1_pay6 q k) (k1_pay7 (F := Ideal)) (ix4 (0 : Fin 1) c i kk)
      = Cert.PoolAttn.attn (fun a b => q (ix4 (0 : Fin 1) c a b)) (fun a b => k (ix4 (0 : Fin 1) c a b))
          (fun a b => v (ix4 (0 : Fin 1) c a b)) i kk := by
  rw [pay1_eq]
  refine (shapeCast_abc_1abc_apply _ shapeCasts_S128x64x64_S1x128x64x64 (0 : Fin 1) c i kk).trans ?_
  refine (matmul4_apply _ _ c i kk).trans ?_
  refine Eq.trans ?_ (attn_unfold _ _ _ i kk).symm
  refine Finset.sum_congr rfl fun j _ => ?_
  exact congr (congrArg HMul.hMul (pay5_apply q k c i j))
    ((truncf_apply _ bitsLt_bf16_f32 (ix3 c j kk)).trans (kqvV_apply q k v c j kk))

end Cert.KernelIdeal.AttnBody

end
-- ==== Proof.KernelAttnArr.lean ====
/-
  The attention call's result array as a whole-array function. Point (b, g) of the 16 × 4 grid reads channels
  128 g … 128 g + 127 of batch b of the three per-(batch, channel) 64 × 64 matrix arrays and writes the same
  channels of batch b of the result; each channel's 64 × 64 result is the pooled double attention of that channel's
  three matrices. The 64 blocks tile the result, so after the call the result array is that attention applied per
  (batch, channel) to the arrays the call found.
-/
import proofs.«116702_j85564338471094_2_alg».proof.Proof.Gen.KernelIdeal.Frame
import proofs.«116702_j85564338471094_2_alg».proof.Proof.AttnBody
import proofs.«116702_j85564338471094_2_alg».proof.Proof.Spec
import Idealize.ShloMosaic.Lib.Pipeline.Value

set_option maxRecDepth 16384

noncomputable section

namespace Cert.KernelIdeal.AttnArr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.AttnBody

variable [Cert.KernelIdeal.Facts]
variable (V : (c : Dev nD) → (b : Ref sig .tc) → Buf (Elt Ideal) ((c : Thread nD τ).loc b))

theorem hz4 : (![0, 0, 0, 0] : Fin 4 → Nat) = fun _ => 0 := funext fun a => by fin_cases a <;> rfl

/-- The printed index maps over the grid: the three input windows move with the result window, block (b, g, 0, 0). -/
theorem idx_facts : ∀ t : Fin cfg1.N,
    (win1_0.index t (0 : Fin 4) = win1_3.index t (0 : Fin 4) ∧ win1_0.index t (1 : Fin 4) = win1_3.index t (1 : Fin 4)
      ∧ win1_0.index t (2 : Fin 4) = 0 ∧ win1_0.index t (3 : Fin 4) = 0)
    ∧ (win1_1.index t (0 : Fin 4) = win1_3.index t (0 : Fin 4) ∧ win1_1.index t (1 : Fin 4) = win1_3.index t (1 : Fin 4)
      ∧ win1_1.index t (2 : Fin 4) = 0 ∧ win1_1.index t (3 : Fin 4) = 0)
    ∧ (win1_2.index t (0 : Fin 4) = win1_3.index t (0 : Fin 4) ∧ win1_2.index t (1 : Fin 4) = win1_3.index t (1 : Fin 4)
      ∧ win1_2.index t (2 : Fin 4) = 0 ∧ win1_2.index t (3 : Fin 4) = 0)
    ∧ win1_3.index t (2 : Fin 4) = 0 ∧ win1_3.index t (3 : Fin 4) = 0 :=
  (by decide +kernel : ∀ t : Fin grid1.N, _)

/-- Every block of the result array is some point's. -/
theorem idx_onto : ∀ (q0 : Fin 16) (q1 : Fin 4), ∃ t : Fin cfg1.N, win1_3.index t = ![q0.val, q1.val, 0, 0] :=
  (by decide +kernel : ∀ (q0 : Fin 16) (q1 : Fin 4), ∃ t : Fin grid1.N, win1_3.index t = ![q0.val, q1.val, 0, 0])

/-- The attention of equal matrices at equal entries. -/
theorem attn_congr {Q Q' K K' U U' : Fin 64 → Fin 64 → EReal} {i i' k k' : Fin 64}
    (hQ : Q = Q') (hK : K = K') (hU : U = U') (hi : i = i') (hk : k = k') :
    Cert.PoolAttn.attn Q K U i k = Cert.PoolAttn.attn Q' K' U' i' k' := by
  subst hQ hK hU hi hk; rfl

/-- What point t writes back is block t of the per-(batch, channel) attention of the three arrays the call finds. -/
theorem flushed3_eq (c : Dev nD) (t : Fin cfg1.N) :
    (dat1 V c).flushed 3 t = ((cfg1.win 3).blk t).view.read (Elt Ideal)
      (Cert.PoolAttn.attnArr (V c main_v1) (V c main_v2) (V c main_v3)) := by
  show (cfg1.win 3).cut (grid1.coords t) ((dat1 V c).after 3 t) = _
  rw [after1_3]
  unfold out1_3
  rw [View.canon_unit_zero hz4]
  simp only [View.ld_unit_zero (S := S1x128x64x64) hz4]
  obtain ⟨⟨a0, a1, a2, a3⟩, ⟨b0, b1, b2, b3⟩, ⟨c0, c1, c2, c3⟩, e2, e3⟩ := idx_facts t
  refine funext fun (j : S1x128x64x64.Idx) => ?_
  have hj0 : (j 0).val < 1 := (j 0).isLt
  have hj : j = ix4 (0 : Fin 1) (⟨(j 1).val, (j 1).isLt⟩ : Fin 128) (⟨(j 2).val, (j 2).isLt⟩ : Fin 64) (⟨(j 3).val, (j 3).isLt⟩ : Fin 64) := by
    funext a; apply Fin.ext
    match a with
    | ⟨0, _⟩ => show (j 0).val = 0; omega
    | ⟨1, _⟩ => rfl
    | ⟨2, _⟩ => rfl
    | ⟨3, _⟩ => rfl
  refine ((congrArg (k1_pay1 (k1_pay4 (iblk1 V c 2 t)) (k1_pay5 (iblk1 V c 0 t) (iblk1 V c 1 t)) (k1_pay6 (iblk1 V c 0 t) (iblk1 V c 1 t)) (k1_pay7 (F := Ideal))) hj).trans
    (attn_payload (iblk1 V c 0 t) (iblk1 V c 1 t) (iblk1 V c 2 t) _ _ _)).trans ?_
  unfold Cert.PoolAttn.attnArr
  refine attn_congr (funext fun a => funext fun b => ?_) (funext fun a => funext fun b => ?_) (funext fun a => funext fun b => ?_) (Fin.ext ?_) (Fin.ext ?_)
  · show V c main_v1 (((cfg1.win 0).blk t).view.emb (ix4 (0 : Fin 1) (⟨(j 1).val, (j 1).isLt⟩ : Fin 128) a b)) = V c main_v1 _
    refine congrArg (V c main_v1) (funext fun x => Fin.ext ?_)
    match x with
    | ⟨0, _⟩ => show win1_0.index t (0 : Fin 4) * 1 + 1 * 0 = win1_3.index t (0 : Fin 4) * 1 + 1 * (j 0).val; omega
    | ⟨1, _⟩ => show win1_0.index t (1 : Fin 4) * 128 + 1 * (j 1).val = win1_3.index t (1 : Fin 4) * 128 + 1 * (j 1).val; omega
    | ⟨2, _⟩ => show win1_0.index t (2 : Fin 4) * 64 + 1 * a.val = a.val; omega
    | ⟨3, _⟩ => show win1_0.index t (3 : Fin 4) * 64 + 1 * b.val = b.val; omega
  · show V c main_v2 (((cfg1.win 1).blk t).view.emb (ix4 (0 : Fin 1) (⟨(j 1).val, (j 1).isLt⟩ : Fin 128) a b)) = V c main_v2 _
    refine congrArg (V c main_v2) (funext fun x => Fin.ext ?_)
    match x with
    | ⟨0, _⟩ => show win1_1.index t (0 : Fin 4) * 1 + 1 * 0 = win1_3.index t (0 : Fin 4) * 1 + 1 * (j 0).val; omega
    | ⟨1, _⟩ => show win1_1.index t (1 : Fin 4) * 128 + 1 * (j 1).val = win1_3.index t (1 : Fin 4) * 128 + 1 * (j 1).val; omega
    | ⟨2, _⟩ => show win1_1.index t (2 : Fin 4) * 64 + 1 * a.val = a.val; omega
    | ⟨3, _⟩ => show win1_1.index t (3 : Fin 4) * 64 + 1 * b.val = b.val; omega
  · show V c main_v3 (((cfg1.win 2).blk t).view.emb (ix4 (0 : Fin 1) (⟨(j 1).val, (j 1).isLt⟩ : Fin 128) a b)) = V c main_v3 _
    refine congrArg (V c main_v3) (funext fun x => Fin.ext ?_)
    match x with
    | ⟨0, _⟩ => show win1_2.index t (0 : Fin 4) * 1 + 1 * 0 = win1_3.index t (0 : Fin 4) * 1 + 1 * (j 0).val; omega
    | ⟨1, _⟩ => show win1_2.index t (1 : Fin 4) * 128 + 1 * (j 1).val = win1_3.index t (1 : Fin 4) * 128 + 1 * (j 1).val; omega
    | ⟨2, _⟩ => show win1_2.index t (2 : Fin 4) * 64 + 1 * a.val = a.val; omega
    | ⟨3, _⟩ => show win1_2.index t (3 : Fin 4) * 64 + 1 * b.val = b.val; omega
  · show (j 2).val = win1_3.index t (2 : Fin 4) * 64 + 1 * (j 2).val; omega
  · show (j 3).val = win1_3.index t (3 : Fin 4) * 64 + 1 * (j 3).val; omega

/-- An index of the result array is in point t's block iff each coordinate is in the block's range on its axis. -/
theorem mem_blk3 (t : Fin cfg1.N) (i : S16x512x64x64.Idx) :
    i ∈ ((cfg1.win 3).blk t).view.set ↔ ∀ a : Fin 4, win1_3.index t a * S1x128x64x64.size a ≤ (i a).val ∧ (i a).val < win1_3.index t a * S1x128x64x64.size a + S1x128x64x64.size a := by
  show i ∈ ((View.whole main_v4).slice (win1_3.rect t)).set ↔ _
  rw [View.set_slice_whole, Rect.mem_set_unit]
  exact Iff.rfl

/-- The blocks tile the array: batch b, channel ch lies in the block of point (b, ch / 128). -/
theorem cover3 (i : S16x512x64x64.Idx) : ∃ t : Fin cfg1.N, (cfg1.win 3).flush t = true ∧ i ∈ ((cfg1.win 3).blk t).view.set := by
  have hi0 : (i 0).val < 16 := (i 0).isLt
  have hi1 : (i 1).val < 512 := (i 1).isLt
  have hi2 : (i 2).val < 64 := (i 2).isLt
  have hi3 : (i 3).val < 64 := (i 3).isLt
  obtain ⟨t, ht⟩ := idx_onto ⟨(i 0).val, hi0⟩ ⟨(i 1).val / 128, by omega⟩
  have q0 : win1_3.index t (0 : Fin 4) = (i 0).val := congrFun ht 0
  have q1 : win1_3.index t (1 : Fin 4) = (i 1).val / 128 := congrFun ht 1
  have q2 : win1_3.index t (2 : Fin 4) = 0 := congrFun ht 2
  have q3 : win1_3.index t (3 : Fin 4) = 0 := congrFun ht 3
  refine ⟨t, flush1_3 t, ?_⟩
  rw [mem_blk3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 64 ≤ (i 2).val ∧ (i 2).val < win1_3.index t (2 : Fin 4) * 64 + 64; omega
  | ⟨3, _⟩ => show win1_3.index t (3 : Fin 4) * 64 ≤ (i 3).val ∧ (i 3).val < win1_3.index t (3 : Fin 4) * 64 + 64; omega

/-- The array after the call. -/
theorem final3 (c : Dev nD) : (dat1 V c).arrAt 3 cfg1.N
    = Cert.PoolAttn.attnArr (V c main_v1) (V c main_v2) (V c main_v3) :=
  (dat1 V c).arrAt_eq_of_cover 3 _ (fun t _ => flushed3_eq V c t) cover3

end Cert.KernelIdeal.AttnArr

end
-- ==== Proof.KernelValue.lean ====
/-
  What the idealized kernel returns, as one function of its seven arguments. The first call leaves the three
  channel-major projections; the reshapes read each as per-(batch, channel) 64 × 64 matrices (column 64 i + k is
  entry (i, k)); the second call leaves the pooled double attention per (batch, channel); the last reshape and
  transpose put entry (b, c, i, k) at token 64 i + k, channel c. Composed, the result buffer ends at the
  specification's function of the arguments as launched.
-/
import proofs.«116702_j85564338471094_2_alg».proof.Proof.KernelRun
import proofs.«116702_j85564338471094_2_alg».proof.Proof.KernelProjArr
import proofs.«116702_j85564338471094_2_alg».proof.Proof.KernelAttnArr
import Idealize.ShloMosaic.Lib.StableHlo.Run
import Idealize.ShloMosaic.Lib.ValueLayout

set_option maxRecDepth 16384

noncomputable section

namespace Cert.KernelIdeal.Result

open Idealize.ShloMosaic Idealize.ShloMosaic.TcCoe Idealize.ShloMosaic.ValueIdx Idealize.ShloMosaic.Tactic
open Idealize.SL Idealize.SL.Sem Idealize.ShloMosaic.StableHlo
open Cert.KernelIdeal Cert.KernelIdeal.Gen Cert.PoolAttn

/-- The channel-major projection reshaped to per-(batch, channel) matrices: column n = 64 i + k becomes entry (i, k). -/
theorem reshape_projT (x : SX.Idx → EReal) (W : SW.Idx → EReal) (β : SB.Idx → EReal) (h : ST.ShapeCasts SH) :
    shapeCast SH (projT x W β) h = projS x W β := by
  funext i
  have h0 : (i 0).val < 16 := (i 0).isLt
  have h1 : (i 1).val < 512 := (i 1).isLt
  have h2 : (i 2).val < 64 := (i 2).isLt
  have h3 : (i 3).val < 64 := (i 3).isLt
  refine (shapeCast_apply (projT x W β) h i
    (ix3 (⟨(i 0).val, h0⟩ : Fin 16) (⟨(i 1).val, h1⟩ : Fin 512) (tok ⟨(i 2).val, h2⟩ ⟨(i 3).val, h3⟩)) ?_).trans rfl
  rw [Shape.rowMajor_val_three, Shape.rowMajor_val_four]
  show ((i 0).val * 512 + (i 1).val) * 4096 + ((i 2).val * 64 + (i 3).val)
    = (((i 0).val * 512 + (i 1).val) * 64 + (i 2).val) * 64 + (i 3).val
  omega

/-- The per-(batch, channel) result flattened to columns and transposed back to token-major. -/
theorem untok_eq (A : SH.Idx → EReal) (h1 : SH.ShapeCasts ST) (h2 : ST.Transposes [0, 2, 1] SX) :
    transpose SX [0, 2, 1] (shapeCast ST A h1) h2 = untok A := by
  funext i
  have hi0 : (i 0).val < 16 := (i 0).isLt
  have hi1 : (i 1).val < 4096 := (i 1).isLt
  have hi2 : (i 2).val < 512 := (i 2).isLt
  refine (transpose_apply [0, 2, 1] (shapeCast ST A h1) h2 i
    (ix3 (⟨(i 0).val, hi0⟩ : Fin 16) (⟨(i 2).val, hi2⟩ : Fin 512) (⟨(i 1).val, hi1⟩ : Fin 4096)) (fun b => ?_)).trans ?_
  · match b with
    | ⟨0, _⟩ => rfl
    | ⟨1, _⟩ => rfl
    | ⟨2, _⟩ => rfl
  · refine (shapeCast_apply A h1 _
      (ix4 (⟨(i 0).val, hi0⟩ : Fin 16) (⟨(i 2).val, hi2⟩ : Fin 512) (⟨(i 1).val / 64, by omega⟩ : Fin 64)
        (⟨(i 1).val % 64, Nat.mod_lt _ (by decide)⟩ : Fin 64)) ?_).trans rfl
    rw [Shape.rowMajor_val_four, Shape.rowMajor_val_three]
    show (((i 0).val * 512 + (i 2).val) * 64 + (i 1).val / 64) * 64 + (i 1).val % 64
      = ((i 0).val * 512 + (i 2).val) * 4096 + (i 1).val
    omega

variable [Cert.KernelIdeal.Facts]
variable (m : (ℓ : Loc nD τ sig) → Buf (Elt Ideal) ℓ) (ρ : Dev nD → PrngReg)

/-- After the first call and the three reshapes the second call's first operand holds the query projection as
    per-(batch, channel) matrices. -/
theorem entry_q (c : Dev nD) : V2 m ρ c main_v1
    = projS (m ((c : Thread nD τ).loc main_arg0)) (m ((c : Thread nD τ).loc main_arg1)) (m ((c : Thread nD τ).loc main_arg2)) := by
  have e : W2 m ρ c (Proc.devRef .tc main_v1)
      = shapeCast S16x512x64x64 (W1 m ρ c (Proc.devRef .tc main_v0_0)) shapeCasts_S16x512x4096_S16x512x64x64 := by
    show StableHlo.after hostOps1 (W1 m ρ c) (Proc.devRef .tc main_v1) = _
    after_results
    rfl
  have e1 : W1 m ρ c (Proc.devRef .tc main_v0_0)
      = projT (m ((c : Thread nD τ).loc main_arg0)) (m ((c : Thread nD τ).loc main_arg1)) (m ((c : Thread nD τ).loc main_arg2)) :=
    (W1_arr m ρ c 7).trans (ProjArr.final7 (V0 m ρ) c)
  show W2 m ρ c (Proc.devRef .tc main_v1) = _
  rw [e, e1]
  exact reshape_projT _ _ _ _

/-- The same for the key projection, -/
theorem entry_k (c : Dev nD) : V2 m ρ c main_v2
    = projS (m ((c : Thread nD τ).loc main_arg0)) (m ((c : Thread nD τ).loc main_arg3)) (m ((c : Thread nD τ).loc main_arg4)) := by
  have e : W2 m ρ c (Proc.devRef .tc main_v2)
      = shapeCast S16x512x64x64 (W1 m ρ c (Proc.devRef .tc main_v0_1)) shapeCasts_S16x512x4096_S16x512x64x64 := by
    show StableHlo.after hostOps1 (W1 m ρ c) (Proc.devRef .tc main_v2) = _
    after_results
    rfl
  have e1 : W1 m ρ c (Proc.devRef .tc main_v0_1)
      = projT (m ((c : Thread nD τ).loc main_arg0)) (m ((c : Thread nD τ).loc main_arg3)) (m ((c : Thread nD τ).loc main_arg4)) :=
    (W1_arr m ρ c 8).trans (ProjArr.final8 (V0 m ρ) c)
  show W2 m ρ c (Proc.devRef .tc main_v2) = _
  rw [e, e1]
  exact reshape_projT _ _ _ _

/-- and for the value projection. -/
theorem entry_v (c : Dev nD) : V2 m ρ c main_v3
    = projS (m ((c : Thread nD τ).loc main_arg0)) (m ((c : Thread nD τ).loc main_arg5)) (m ((c : Thread nD τ).loc main_arg6)) := by
  have e : W2 m ρ c (Proc.devRef .tc main_v3)
      = shapeCast S16x512x64x64 (W1 m ρ c (Proc.devRef .tc main_v0_2)) shapeCasts_S16x512x4096_S16x512x64x64 := by
    show StableHlo.after hostOps1 (W1 m ρ c) (Proc.devRef .tc main_v3) = _
    after_results
    rfl
  have e1 : W1 m ρ c (Proc.devRef .tc main_v0_2)
      = projT (m ((c : Thread nD τ).loc main_arg0)) (m ((c : Thread nD τ).loc main_arg5)) (m ((c : Thread nD τ).loc main_arg6)) :=
    (W1_arr m ρ c 9).trans (ProjArr.final9 (V0 m ρ) c)
  show W2 m ρ c (Proc.devRef .tc main_v3) = _
  rw [e, e1]
  exact reshape_projT _ _ _ _

/-- What the program returns: the specification's function of the seven argument arrays as launched. -/
theorem result_value (c : Dev nD) : W4 m ρ c (Proc.devRef .tc main_v6)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h4 : W4 m ρ c (Proc.devRef .tc main_v6)
      = transpose S16x4096x512 [0, 2, 1] (shapeCast S16x512x4096 (W3 m ρ c (Proc.devRef .tc main_v4))
          shapeCasts_S16x512x64x64_S16x512x4096) transposes_S16x512x4096_S16x4096x512_0_2_1 := by
    show StableHlo.after hostOps2 (W3 m ρ c) (Proc.devRef .tc main_v6) = _
    after_results
    rfl
  have h3 : W3 m ρ c (Proc.devRef .tc main_v4) = attnArr (V2 m ρ c main_v1) (V2 m ρ c main_v2) (V2 m ρ c main_v3) :=
    (W3_arr m ρ c 3).trans (AttnArr.final3 (V2 m ρ) c)
  rw [h4, h3, entry_q m ρ c, entry_k m ρ c, entry_v m ρ c]
  exact untok_eq _ _ _

end Cert.KernelIdeal.Result

end
-- ==== Proof.RefValue.lean ====
/-
  The reference program read as the specification. Each operation of the reference is read at one index over explicit
  coordinates: the three logistic projections in their per-(batch, channel) 64 x 64 layout, the pooled rows, the scaled
  logits with their row maxima and softmaxes, the two matrix products, and the return to the token-major layout.
-/
import proofs.«116702_j85564338471094_2_alg».proof.Proof.Gen.ReferenceIdeal.Read
import proofs.«116702_j85564338471094_2_alg».proof.Proof.Spec
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.PoolAttn Idealize.ShloMosaic.ValueIdx

/-- The types of a token-major array, of a weight matrix and of a bias, at the extended reals. -/
abbrev AX := (⟨S16x4096x512, .f32⟩ : BufTy).Contents (Elt Ideal)
abbrev AW := (⟨S512x512, .f32⟩ : BufTy).Contents (Elt Ideal)
abbrev AB := (⟨S512, .f32⟩ : BufTy).Contents (Elt Ideal)

/-- The per-(batch, channel) 64 x 64 matrix of an array laid out [16, 512, 64, 64]. -/
abbrev mat (A : S16x512x64x64.Idx → EReal) (b : Fin 16) (c : Fin 512) : Fin 64 → Fin 64 → EReal :=
  fun a k => A (ix4 b c a k)

/-! ## The projections

  Entry (b, c, i, k) of the 64 x 64 layout sits at token 64 i + k of the channel-major array, which the transpose reads
  at (b, 64 i + k, c); there the value is 1 / (1 + exp (-(x W^T + bias))), the logistic. -/

theorem idx_tok_v11 (b : Fin 16) (c : Fin 512) (i k : Fin 64) :
    idx_main_v10 (idx_main_v11 (ix4 b c i k)) = ix3 b (tok i k) c := by
  have hb := b.isLt; have hc := c.isLt; have hi := i.isLt; have hk := k.isLt
  funext a
  apply Fin.ext
  match a with
  | ⟨0, _⟩ => show ((((b.val * 512 + c.val) * 64 + i.val) * 64 + k.val) / 2097152) = b.val; omega
  | ⟨1, _⟩ => show ((((b.val * 512 + c.val) * 64 + i.val) * 64 + k.val) % 4096) = i.val * 64 + k.val; omega
  | ⟨2, _⟩ => show ((((b.val * 512 + c.val) * 64 + i.val) * 64 + k.val) / 4096 % 512) = c.val; omega
theorem lidx_v0 (b : Fin 16) (n : Fin 4096) (c k : Fin 512) : lidx_main_v0 (ix3 b n c) k = ix3 b n k :=
  funext fun a => Fin.ext (by match a with | ⟨0, _⟩ => rfl | ⟨1, _⟩ => rfl | ⟨2, _⟩ => rfl)
theorem ridx_v0 (b : Fin 16) (n : Fin 4096) (c k : Fin 512) : ridx_main_v0 (ix3 b n c) k = ix2 c k :=
  funext fun a => Fin.ext (by match a with | ⟨0, _⟩ => rfl | ⟨1, _⟩ => rfl)
theorem bidx_v2 (b : Fin 16) (n : Fin 4096) (c : Fin 512) : idx_main_v1 (idx_main_v2 (ix3 b n c)) = ix1 c :=
  funext fun a => Fin.ext (by match a with | ⟨0, _⟩ => rfl)

/-- The first projection at one entry of the 64 x 64 layout: the logistic of the token's row against the weight
    row of the channel, plus the channel's bias. -/
theorem v11_at (x0 : AX) (W : AW) (β : AB) (b : Fin 16) (c : Fin 512) (i k : Fin 64) :
    val_main_v11 (F := Ideal) x0 W β (ix4 b c i k) = proj x0 W β b (tok i k) c := by
  rw [val_main_v11_apply, val_main_v10_apply, idx_tok_v11, val_main_v9_apply, val_main_v8_apply, val_main_cst_0_apply,
    val_main_v7_apply, val_main_v6_apply, val_main_cst_apply, val_main_v5_apply, val_main_v4_apply, val_main_v3_apply,
    val_main_v0_apply, val_main_v2_apply, val_main_v1_apply, bidx_v2]
  simp only [lidx_v0, ridx_v0, Ideal.hostDivf_def, Ideal.addf_def, Ideal.hostUnary_exp_def, Ideal.hostNegf_def, Ideal.negf_def,
    Ideal.ofBits_def, Ideal.ofBits_one_f32]
  rfl

/-- The first projection is the specification's, as whole arrays. -/
theorem v11_eq (x0 : AX) (W : AW) (β : AB) : val_main_v11 (F := Ideal) x0 W β = projS x0 W β := by
  funext j
  obtain ⟨b, c, i, k, rfl⟩ : ∃ (b : Fin 16) (c : Fin 512) (i k : Fin 64), j = ix4 b c i k := ⟨j 0, j 1, j 2, j 3, eq_ix4 j⟩
  rw [v11_at]
  rfl

theorem idx_tok_v23 (b : Fin 16) (c : Fin 512) (i k : Fin 64) :
    idx_main_v22 (idx_main_v23 (ix4 b c i k)) = ix3 b (tok i k) c := by
  have hb := b.isLt; have hc := c.isLt; have hi := i.isLt; have hk := k.isLt
  funext a
  apply Fin.ext
  match a with
  | ⟨0, _⟩ => show ((((b.val * 512 + c.val) * 64 + i.val) * 64 + k.val) / 2097152) = b.val; omega
  | ⟨1, _⟩ => show ((((b.val * 512 + c.val) * 64 + i.val) * 64 + k.val) % 4096) = i.val * 64 + k.val; omega
  | ⟨2, _⟩ => show ((((b.val * 512 + c.val) * 64 + i.val) * 64 + k.val) / 4096 % 512) = c.val; omega
theorem lidx_v12 (b : Fin 16) (n : Fin 4096) (c k : Fin 512) : lidx_main_v12 (ix3 b n c) k = ix3 b n k :=
  funext fun a => Fin.ext (by match a with | ⟨0, _⟩ => rfl | ⟨1, _⟩ => rfl | ⟨2, _⟩ => rfl)
theorem ridx_v12 (b : Fin 16) (n : Fin 4096) (c k : Fin 512) : ridx_main_v12 (ix3 b n c) k = ix2 c k :=
  funext fun a => Fin.ext (by match a with | ⟨0, _⟩ => rfl | ⟨1, _⟩ => rfl)
theorem bidx_v14 (b : Fin 16) (n : Fin 4096) (c : Fin 512) : idx_main_v13 (idx_main_v14 (ix3 b n c)) = ix1 c :=
  funext fun a => Fin.ext (by match a with | ⟨0, _⟩ => rfl)

/-- The second projection at one entry of the 64 x 64 layout: the logistic of the token's row against the weight
    row of the channel, plus the channel's bias. -/
theorem v23_at (x0 : AX) (W : AW) (β : AB) (b : Fin 16) (c : Fin 512) (i k : Fin 64) :
    val_main_v23 (F := Ideal) x0 W β (ix4 b c i k) = proj x0 W β b (tok i k) c := by
  rw [val_main_v23_apply, val_main_v22_apply, idx_tok_v23, val_main_v21_apply, val_main_v20_apply, val_main_cst_2_apply,
    val_main_v19_apply, val_main_v18_apply, val_main_cst_1_apply, val_main_v17_apply, val_main_v16_apply, val_main_v15_apply,
    val_main_v12_apply, val_main_v14_apply, val_main_v13_apply, bidx_v14]
  simp only [lidx_v12, ridx_v12, Ideal.hostDivf_def, Ideal.addf_def, Ideal.hostUnary_exp_def, Ideal.hostNegf_def, Ideal.negf_def,
    Ideal.ofBits_def, Ideal.ofBits_one_f32]
  rfl

/-- The second projection is the specification's, as whole arrays. -/
theorem v23_eq (x0 : AX) (W : AW) (β : AB) : val_main_v23 (F := Ideal) x0 W β = projS x0 W β := by
  funext j
  obtain ⟨b, c, i, k, rfl⟩ : ∃ (b : Fin 16) (c : Fin 512) (i k : Fin 64), j = ix4 b c i k := ⟨j 0, j 1, j 2, j 3, eq_ix4 j⟩
  rw [v23_at]
  rfl

theorem idx_tok_v35 (b : Fin 16) (c : Fin 512) (i k : Fin 64) :
    idx_main_v34 (idx_main_v35 (ix4 b c i k)) = ix3 b (tok i k) c := by
  have hb := b.isLt; have hc := c.isLt; have hi := i.isLt; have hk := k.isLt
  funext a
  apply Fin.ext
  match a with
  | ⟨0, _⟩ => show ((((b.val * 512 + c.val) * 64 + i.val) * 64 + k.val) / 2097152) = b.val; omega
  | ⟨1, _⟩ => show ((((b.val * 512 + c.val) * 64 + i.val) * 64 + k.val) % 4096) = i.val * 64 + k.val; omega
  | ⟨2, _⟩ => show ((((b.val * 512 + c.val) * 64 + i.val) * 64 + k.val) / 4096 % 512) = c.val; omega
theorem lidx_v24 (b : Fin 16) (n : Fin 4096) (c k : Fin 512) : lidx_main_v24 (ix3 b n c) k = ix3 b n k :=
  funext fun a => Fin.ext (by match a with | ⟨0, _⟩ => rfl | ⟨1, _⟩ => rfl | ⟨2, _⟩ => rfl)
theorem ridx_v24 (b : Fin 16) (n : Fin 4096) (c k : Fin 512) : ridx_main_v24 (ix3 b n c) k = ix2 c k :=
  funext fun a => Fin.ext (by match a with | ⟨0, _⟩ => rfl | ⟨1, _⟩ => rfl)
theorem bidx_v26 (b : Fin 16) (n : Fin 4096) (c : Fin 512) : idx_main_v25 (idx_main_v26 (ix3 b n c)) = ix1 c :=
  funext fun a => Fin.ext (by match a with | ⟨0, _⟩ => rfl)

/-- The third projection at one entry of the 64 x 64 layout: the logistic of the token's row against the weight
    row of the channel, plus the channel's bias. -/
theorem v35_at (x0 : AX) (W : AW) (β : AB) (b : Fin 16) (c : Fin 512) (i k : Fin 64) :
    val_main_v35 (F := Ideal) x0 W β (ix4 b c i k) = proj x0 W β b (tok i k) c := by
  rw [val_main_v35_apply, val_main_v34_apply, idx_tok_v35, val_main_v33_apply, val_main_v32_apply, val_main_cst_4_apply,
    val_main_v31_apply, val_main_v30_apply, val_main_cst_3_apply, val_main_v29_apply, val_main_v28_apply, val_main_v27_apply,
    val_main_v24_apply, val_main_v26_apply, val_main_v25_apply, bidx_v26]
  simp only [lidx_v24, ridx_v24, Ideal.hostDivf_def, Ideal.addf_def, Ideal.hostUnary_exp_def, Ideal.hostNegf_def, Ideal.negf_def,
    Ideal.ofBits_def, Ideal.ofBits_one_f32]
  rfl

/-- The third projection is the specification's, as whole arrays. -/
theorem v35_eq (x0 : AX) (W : AW) (β : AB) : val_main_v35 (F := Ideal) x0 W β = projS x0 W β := by
  funext j
  obtain ⟨b, c, i, k, rfl⟩ : ∃ (b : Fin 16) (c : Fin 512) (i k : Fin 64), j = ix4 b c i k := ⟨j 0, j 1, j 2, j 3, eq_ix4 j⟩
  rw [v35_at]
  rfl

/-! ## Pooling -/

theorem idx_pool_v39 (b : Fin 16) (c : Fin 512) (i : Fin 32) (k : Fin 64) (p : Fin 2) :
    idx_main_v36 (idx_main_v37 (ix4 b c i k) p) = ix4 b c (row2 i p) k := by
  have hb := b.isLt; have hc := c.isLt; have hi := i.isLt; have hk := k.isLt; have hp := p.isLt
  funext a
  apply Fin.ext
  match a with
  | ⟨0, _⟩ => show (((((b.val * 512 + c.val) * 32 + i.val) * 2 + p.val) * 64 + k.val) / 2097152) = b.val; omega
  | ⟨1, _⟩ => show (((((b.val * 512 + c.val) * 32 + i.val) * 2 + p.val) * 64 + k.val) / 4096 % 512) = c.val; omega
  | ⟨2, _⟩ => show (((((b.val * 512 + c.val) * 32 + i.val) * 2 + p.val) * 64 + k.val) / 64 % 64) = i.val * 2 + p.val; omega
  | ⟨3, _⟩ => show (((((b.val * 512 + c.val) * 32 + i.val) * 2 + p.val) * 64 + k.val) % 64) = k.val; omega

/-- The pooled rows: entry (i, k) is the sum of rows 2 i and 2 i + 1 at column k, divided by the word of two. -/
theorem v39_at (x0 : AX) (W : AW) (β : AB) (b : Fin 16) (c : Fin 512) (i : Fin 32) (k : Fin 64) :
    val_main_v39 (F := Ideal) x0 W β (ix4 b c i k) = pool (mat (val_main_v11 (F := Ideal) x0 W β) b c) i k := by
  rw [val_main_v39_apply, val_main_v38_apply, val_main_cst_6_apply, val_main_v37_apply, val_main_cst_5_apply]
  simp only [val_main_v36_apply, idx_pool_v39, Ideal.hostDivf_def, Ideal.ofBits_def, Ideal.ofBits_zero_f32, zero_add, Cert.PoolAttn.pool, mat]

theorem idx_pool_v43 (b : Fin 16) (c : Fin 512) (i : Fin 32) (k : Fin 64) (p : Fin 2) :
    idx_main_v40 (idx_main_v41 (ix4 b c i k) p) = ix4 b c (row2 i p) k := by
  have hb := b.isLt; have hc := c.isLt; have hi := i.isLt; have hk := k.isLt; have hp := p.isLt
  funext a
  apply Fin.ext
  match a with
  | ⟨0, _⟩ => show (((((b.val * 512 + c.val) * 32 + i.val) * 2 + p.val) * 64 + k.val) / 2097152) = b.val; omega
  | ⟨1, _⟩ => show (((((b.val * 512 + c.val) * 32 + i.val) * 2 + p.val) * 64 + k.val) / 4096 % 512) = c.val; omega
  | ⟨2, _⟩ => show (((((b.val * 512 + c.val) * 32 + i.val) * 2 + p.val) * 64 + k.val) / 64 % 64) = i.val * 2 + p.val; omega
  | ⟨3, _⟩ => show (((((b.val * 512 + c.val) * 32 + i.val) * 2 + p.val) * 64 + k.val) % 64) = k.val; omega

/-- The pooled rows: entry (i, k) is the sum of rows 2 i and 2 i + 1 at column k, divided by the word of two. -/
theorem v43_at (x0 : AX) (W : AW) (β : AB) (b : Fin 16) (c : Fin 512) (i : Fin 32) (k : Fin 64) :
    val_main_v43 (F := Ideal) x0 W β (ix4 b c i k) = pool (mat (val_main_v23 (F := Ideal) x0 W β) b c) i k := by
  rw [val_main_v43_apply, val_main_v42_apply, val_main_cst_8_apply, val_main_v41_apply, val_main_cst_7_apply]
  simp only [val_main_v40_apply, idx_pool_v43, Ideal.hostDivf_def, Ideal.ofBits_def, Ideal.ofBits_zero_f32, zero_add, Cert.PoolAttn.pool, mat]

/-! ## Logits

  Q, K, V below are the three projections' 64 x 64 matrices at one (batch, channel). -/

theorem lidx_v44 (b : Fin 16) (c : Fin 512) (i : Fin 64) (j : Fin 32) (k : Fin 64) : lidx_main_v44 (ix4 b c i j) k = ix4 b c i k :=
  funext fun a => Fin.ext (by match a with | ⟨0, _⟩ => rfl | ⟨1, _⟩ => rfl | ⟨2, _⟩ => rfl | ⟨3, _⟩ => rfl)

theorem ridx_v44 (b : Fin 16) (c : Fin 512) (i : Fin 64) (j : Fin 32) (k : Fin 64) : ridx_main_v44 (ix4 b c i j) k = ix4 b c j k :=
  funext fun a => Fin.ext (by match a with | ⟨0, _⟩ => rfl | ⟨1, _⟩ => rfl | ⟨2, _⟩ => rfl | ⟨3, _⟩ => rfl)

theorem lidx_v58 (b : Fin 16) (c : Fin 512) (j : Fin 32) (l : Fin 64) (k : Fin 64) : lidx_main_v58 (ix4 b c j l) k = ix4 b c j k :=
  funext fun a => Fin.ext (by match a with | ⟨0, _⟩ => rfl | ⟨1, _⟩ => rfl | ⟨2, _⟩ => rfl | ⟨3, _⟩ => rfl)

theorem ridx_v58 (b : Fin 16) (c : Fin 512) (j : Fin 32) (l : Fin 64) (k : Fin 64) : ridx_main_v58 (ix4 b c j l) k = ix4 b c l k :=
  funext fun a => Fin.ext (by match a with | ⟨0, _⟩ => rfl | ⟨1, _⟩ => rfl | ⟨2, _⟩ => rfl | ⟨3, _⟩ => rfl)

/-- The scaled logits of the full rows of Q against the pooled rows of K. -/
theorem v46_at (x0 : AX) (x1 : AW) (x2 : AB) (x3 : AW) (x4 : AB) (b : Fin 16) (c : Fin 512) (i : Fin 64) (j : Fin 32) :
    val_main_v46 (F := Ideal) x0 x1 x2 x3 x4 (ix4 b c i j)
      = logitsQk (mat (val_main_v11 (F := Ideal) x0 x1 x2) b c) (mat (val_main_v23 (F := Ideal) x0 x3 x4) b c) i j := by
  rw [val_main_v46_apply, val_main_v45_apply, val_main_cst_9_apply, val_main_v44_apply]
  simp only [lidx_v44, ridx_v44, v43_at, Ideal.mulf_def, Ideal.ofBits_def, Cert.PoolAttn.logitsQk, mat]

/-- The scaled logits of the pooled rows of Q against the full rows of K. -/
theorem v60_at (x0 : AX) (x1 : AW) (x2 : AB) (x3 : AW) (x4 : AB) (b : Fin 16) (c : Fin 512) (j : Fin 32) (l : Fin 64) :
    val_main_v60 (F := Ideal) x0 x1 x2 x3 x4 (ix4 b c j l)
      = logitsKq (mat (val_main_v11 (F := Ideal) x0 x1 x2) b c) (mat (val_main_v23 (F := Ideal) x0 x3 x4) b c) j l := by
  rw [val_main_v60_apply, val_main_v59_apply, val_main_cst_13_apply, val_main_v58_apply]
  simp only [lidx_v58, ridx_v58, v39_at, Ideal.mulf_def, Ideal.ofBits_def, Cert.PoolAttn.logitsKq, mat]

/-! ## Row maxima and softmaxes -/

theorem red_qk : S16x512x64x32.Reduces [3] S16x512x64 := by decide

/-- A reduced index with the coordinate of the reduced axis put back. -/
theorem lift_qk (h : S16x512x64x32.Reduces [3] S16x512x64) (b : Fin 16) (c : Fin 512) (i : Fin 64) (k : Fin (S16x512x64x32.size 3)) :
    h.lift (ix3 b c i) k = ix4 b c i (⟨k.val, k.isLt⟩ : Fin 32) := by
  funext a; apply Fin.ext
  fin_cases a <;> rfl

/-- The reduce with a maximum body over the last axis is the fold of max from the initial word over that axis. -/
theorem v47_at (x0 : AX) (x1 : AW) (x2 : AB) (x3 : AW) (x4 : AB) (b : Fin 16) (c : Fin 512) (i : Fin 64) :
    val_main_v47 (F := Ideal) x0 x1 x2 x3 x4 (ix3 b c i)
      = (Finset.univ : Finset (Fin 32)).fold max (Ideal.ofBits .f32 0xFF800000#32)
          (fun j => val_main_v46 (F := Ideal) x0 x1 x2 x3 x4 (ix4 b c i j)) := by
  unfold val_main_v47
  generalize val_main_v46 (F := Ideal) x0 x1 x2 x3 x4 = y
  have key := Host.reduce_eq_fold_single (α := Ideal .f32) (s := S16x512x64x32) (t := S16x512x64) (a := 3) (u := S_)
    (FloatOps.maximumf (F := Ideal) (φ := .f32)) y (val_main_cst_10 (F := Ideal)) reducesTo_S16x512x64x32_S16x512x64_d3 red_qk h_S_ (ix3 b c i)
  have hf : (y ∘ red_qk.lift (ix3 b c i)) = fun j : Fin 32 => y (ix4 b c i j) :=
    funext fun k => congrArg y (lift_qk red_qk b c i k)
  exact key.trans (congrArg (fun f => Finset.fold max (Ideal.ofBits .f32 0xFF800000#32) f (Finset.univ : Finset (Fin 32))) hf)

/-- The row maximum of a full row of Q against the pooled rows of K. -/
theorem v49_at (x0 : AX) (x1 : AW) (x2 : AB) (x3 : AW) (x4 : AB) (b : Fin 16) (c : Fin 512) (i : Fin 64) :
    val_main_v49 (F := Ideal) x0 x1 x2 x3 x4 (ix3 b c i) = rowmax (logitsQk (mat (val_main_v11 (F := Ideal) x0 x1 x2) b c) (mat (val_main_v23 (F := Ideal) x0 x3 x4) b c) i) := by
  rw [val_main_v49_apply, val_main_v48_apply, val_main_cst_11_apply, v47_at]
  simp only [v46_at, Ideal.maximumf_def, Ideal.ofBits_def, Cert.PoolAttn.rowmax]

theorem idx_v50_v51 (b : Fin 16) (c : Fin 512) (i : Fin 64) (j : Fin 32) : idx_main_v50 (idx_main_v51 (ix4 b c i j)) = ix3 b c i :=
  funext fun a => Fin.ext (by match a with | ⟨0, _⟩ => rfl | ⟨1, _⟩ => rfl | ⟨2, _⟩ => rfl)

theorem idx_v55_v56 (b : Fin 16) (c : Fin 512) (i : Fin 64) (j : Fin 32) : idx_main_v55 (idx_main_v56 (ix4 b c i j)) = ix3 b c i :=
  funext fun a => Fin.ext (by match a with | ⟨0, _⟩ => rfl | ⟨1, _⟩ => rfl | ⟨2, _⟩ => rfl)

theorem idx_v54 (b : Fin 16) (c : Fin 512) (i : Fin 64) (j : Fin 32) : idx_main_v54 (ix3 b c i) j = ix4 b c i j :=
  funext fun a => Fin.ext (by match a with | ⟨0, _⟩ => rfl | ⟨1, _⟩ => rfl | ⟨2, _⟩ => rfl | ⟨3, _⟩ => rfl)

/-- The exponential of a logit less its row's maximum. -/
theorem v53_at (x0 : AX) (x1 : AW) (x2 : AB) (x3 : AW) (x4 : AB) (b : Fin 16) (c : Fin 512) (i : Fin 64) (j : Fin 32) :
    val_main_v53 (F := Ideal) x0 x1 x2 x3 x4 (ix4 b c i j)
      = Ideal.exp (logitsQk (mat (val_main_v11 (F := Ideal) x0 x1 x2) b c) (mat (val_main_v23 (F := Ideal) x0 x3 x4) b c) i j - rowmax (logitsQk (mat (val_main_v11 (F := Ideal) x0 x1 x2) b c) (mat (val_main_v23 (F := Ideal) x0 x3 x4) b c) i)) := by
  rw [val_main_v53_apply, val_main_v52_apply, val_main_v51_apply, val_main_v50_apply, idx_v50_v51, v49_at, v46_at]
  rfl

/-- The softmax of a full row of Q against the pooled rows of K. -/
theorem v57_at (x0 : AX) (x1 : AW) (x2 : AB) (x3 : AW) (x4 : AB) (b : Fin 16) (c : Fin 512) (i : Fin 64) (j : Fin 32) :
    val_main_v57 (F := Ideal) x0 x1 x2 x3 x4 (ix4 b c i j) = softmax (logitsQk (mat (val_main_v11 (F := Ideal) x0 x1 x2) b c) (mat (val_main_v23 (F := Ideal) x0 x3 x4) b c) i) j := by
  rw [val_main_v57_apply, val_main_v56_apply, val_main_v55_apply, idx_v55_v56, val_main_v54_apply, val_main_cst_12_apply, v53_at]
  simp only [idx_v54, v53_at, Ideal.hostDivf_def, Ideal.ofBits_def, Ideal.ofBits_zero_f32, zero_add, Cert.PoolAttn.softmax]

theorem red_kq : S16x512x32x64.Reduces [3] S16x512x32 := by decide

/-- A reduced index with the coordinate of the reduced axis put back. -/
theorem lift_kq (h : S16x512x32x64.Reduces [3] S16x512x32) (b : Fin 16) (c : Fin 512) (j : Fin 32) (k : Fin (S16x512x32x64.size 3)) :
    h.lift (ix3 b c j) k = ix4 b c j (⟨k.val, k.isLt⟩ : Fin 64) := by
  funext a; apply Fin.ext
  fin_cases a <;> rfl

/-- The reduce with a maximum body over the last axis is the fold of max from the initial word over that axis. -/
theorem v61_at (x0 : AX) (x1 : AW) (x2 : AB) (x3 : AW) (x4 : AB) (b : Fin 16) (c : Fin 512) (j : Fin 32) :
    val_main_v61 (F := Ideal) x0 x1 x2 x3 x4 (ix3 b c j)
      = (Finset.univ : Finset (Fin 64)).fold max (Ideal.ofBits .f32 0xFF800000#32)
          (fun l => val_main_v60 (F := Ideal) x0 x1 x2 x3 x4 (ix4 b c j l)) := by
  unfold val_main_v61
  generalize val_main_v60 (F := Ideal) x0 x1 x2 x3 x4 = y
  have key := Host.reduce_eq_fold_single (α := Ideal .f32) (s := S16x512x32x64) (t := S16x512x32) (a := 3) (u := S_)
    (FloatOps.maximumf (F := Ideal) (φ := .f32)) y (val_main_cst_14 (F := Ideal)) reducesTo_S16x512x32x64_S16x512x32_d3 red_kq h_S_ (ix3 b c j)
  have hf : (y ∘ red_kq.lift (ix3 b c j)) = fun l : Fin 64 => y (ix4 b c j l) :=
    funext fun k => congrArg y (lift_kq red_kq b c j k)
  exact key.trans (congrArg (fun f => Finset.fold max (Ideal.ofBits .f32 0xFF800000#32) f (Finset.univ : Finset (Fin 64))) hf)

/-- The row maximum of a pooled row of Q against the full rows of K. -/
theorem v63_at (x0 : AX) (x1 : AW) (x2 : AB) (x3 : AW) (x4 : AB) (b : Fin 16) (c : Fin 512) (j : Fin 32) :
    val_main_v63 (F := Ideal) x0 x1 x2 x3 x4 (ix3 b c j) = rowmax (logitsKq (mat (val_main_v11 (F := Ideal) x0 x1 x2) b c) (mat (val_main_v23 (F := Ideal) x0 x3 x4) b c) j) := by
  rw [val_main_v63_apply, val_main_v62_apply, val_main_cst_15_apply, v61_at]
  simp only [v60_at, Ideal.maximumf_def, Ideal.ofBits_def, Cert.PoolAttn.rowmax]

theorem idx_v64_v65 (b : Fin 16) (c : Fin 512) (j : Fin 32) (l : Fin 64) : idx_main_v64 (idx_main_v65 (ix4 b c j l)) = ix3 b c j :=
  funext fun a => Fin.ext (by match a with | ⟨0, _⟩ => rfl | ⟨1, _⟩ => rfl | ⟨2, _⟩ => rfl)

theorem idx_v69_v70 (b : Fin 16) (c : Fin 512) (j : Fin 32) (l : Fin 64) : idx_main_v69 (idx_main_v70 (ix4 b c j l)) = ix3 b c j :=
  funext fun a => Fin.ext (by match a with | ⟨0, _⟩ => rfl | ⟨1, _⟩ => rfl | ⟨2, _⟩ => rfl)

theorem idx_v68 (b : Fin 16) (c : Fin 512) (j : Fin 32) (l : Fin 64) : idx_main_v68 (ix3 b c j) l = ix4 b c j l :=
  funext fun a => Fin.ext (by match a with | ⟨0, _⟩ => rfl | ⟨1, _⟩ => rfl | ⟨2, _⟩ => rfl | ⟨3, _⟩ => rfl)

/-- The exponential of a logit less its row's maximum. -/
theorem v67_at (x0 : AX) (x1 : AW) (x2 : AB) (x3 : AW) (x4 : AB) (b : Fin 16) (c : Fin 512) (j : Fin 32) (l : Fin 64) :
    val_main_v67 (F := Ideal) x0 x1 x2 x3 x4 (ix4 b c j l)
      = Ideal.exp (logitsKq (mat (val_main_v11 (F := Ideal) x0 x1 x2) b c) (mat (val_main_v23 (F := Ideal) x0 x3 x4) b c) j l - rowmax (logitsKq (mat (val_main_v11 (F := Ideal) x0 x1 x2) b c) (mat (val_main_v23 (F := Ideal) x0 x3 x4) b c) j)) := by
  rw [val_main_v67_apply, val_main_v66_apply, val_main_v65_apply, val_main_v64_apply, idx_v64_v65, v63_at, v60_at]
  rfl

/-- The softmax of a pooled row of Q against the full rows of K. -/
theorem v71_at (x0 : AX) (x1 : AW) (x2 : AB) (x3 : AW) (x4 : AB) (b : Fin 16) (c : Fin 512) (j : Fin 32) (l : Fin 64) :
    val_main_v71 (F := Ideal) x0 x1 x2 x3 x4 (ix4 b c j l) = softmax (logitsKq (mat (val_main_v11 (F := Ideal) x0 x1 x2) b c) (mat (val_main_v23 (F := Ideal) x0 x3 x4) b c) j) l := by
  rw [val_main_v71_apply, val_main_v70_apply, val_main_v69_apply, idx_v69_v70, val_main_v68_apply, val_main_cst_16_apply, v67_at]
  simp only [idx_v68, v67_at, Ideal.hostDivf_def, Ideal.ofBits_def, Ideal.ofBits_zero_f32, zero_add, Cert.PoolAttn.softmax]

/-! ## The two matrix products and the result -/

theorem lidx_v72 (b : Fin 16) (c : Fin 512) (j : Fin 32) (k l : Fin 64) : lidx_main_v72 (ix4 b c j k) l = ix4 b c j l :=
  funext fun a => Fin.ext (by match a with | ⟨0, _⟩ => rfl | ⟨1, _⟩ => rfl | ⟨2, _⟩ => rfl | ⟨3, _⟩ => rfl)

theorem ridx_v72 (b : Fin 16) (c : Fin 512) (j : Fin 32) (k l : Fin 64) : ridx_main_v72 (ix4 b c j k) l = ix4 b c l k :=
  funext fun a => Fin.ext (by match a with | ⟨0, _⟩ => rfl | ⟨1, _⟩ => rfl | ⟨2, _⟩ => rfl | ⟨3, _⟩ => rfl)

theorem lidx_v73 (b : Fin 16) (c : Fin 512) (i k : Fin 64) (j : Fin 32) : lidx_main_v73 (ix4 b c i k) j = ix4 b c i j :=
  funext fun a => Fin.ext (by match a with | ⟨0, _⟩ => rfl | ⟨1, _⟩ => rfl | ⟨2, _⟩ => rfl | ⟨3, _⟩ => rfl)

theorem ridx_v73 (b : Fin 16) (c : Fin 512) (i k : Fin 64) (j : Fin 32) : ridx_main_v73 (ix4 b c i k) j = ix4 b c j k :=
  funext fun a => Fin.ext (by match a with | ⟨0, _⟩ => rfl | ⟨1, _⟩ => rfl | ⟨2, _⟩ => rfl | ⟨3, _⟩ => rfl)

/-- The softmax of the pooled rows of Q against K, times V. -/
theorem v72_at (x0 : AX) (x1 : AW) (x2 : AB) (x3 : AW) (x4 : AB) (x5 : AW) (x6 : AB) (b : Fin 16) (c : Fin 512) (j : Fin 32) (k : Fin 64) :
    val_main_v72 (F := Ideal) x0 x1 x2 x3 x4 x5 x6 (ix4 b c j k) = kqv (mat (val_main_v11 (F := Ideal) x0 x1 x2) b c) (mat (val_main_v23 (F := Ideal) x0 x3 x4) b c) (mat (val_main_v35 (F := Ideal) x0 x5 x6) b c) j k := by
  rw [val_main_v72_apply]
  simp only [lidx_v72, ridx_v72, v71_at, Cert.PoolAttn.kqv, mat]

/-- The softmax of the rows of Q against the pooled K, times the product above: the attention at one (batch, channel). -/
theorem v73_at (x0 : AX) (x1 : AW) (x2 : AB) (x3 : AW) (x4 : AB) (x5 : AW) (x6 : AB) (b : Fin 16) (c : Fin 512) (i k : Fin 64) :
    val_main_v73 (F := Ideal) x0 x1 x2 x3 x4 x5 x6 (ix4 b c i k) = attn (mat (val_main_v11 (F := Ideal) x0 x1 x2) b c) (mat (val_main_v23 (F := Ideal) x0 x3 x4) b c) (mat (val_main_v35 (F := Ideal) x0 x5 x6) b c) i k := by
  rw [val_main_v73_apply]
  simp only [lidx_v73, ridx_v73, v57_at, v72_at, Cert.PoolAttn.attn]

/-- The attention stage as a whole array, over the three projections' arrays. -/
theorem v73_eq (x0 : AX) (x1 : AW) (x2 : AB) (x3 : AW) (x4 : AB) (x5 : AW) (x6 : AB) :
    val_main_v73 (F := Ideal) x0 x1 x2 x3 x4 x5 x6
      = attnArr (val_main_v11 (F := Ideal) x0 x1 x2) (val_main_v23 (F := Ideal) x0 x3 x4) (val_main_v35 (F := Ideal) x0 x5 x6) := by
  funext j
  obtain ⟨b, c, i, k, rfl⟩ : ∃ (b : Fin 16) (c : Fin 512) (i k : Fin 64), j = ix4 b c i k := ⟨j 0, j 1, j 2, j 3, eq_ix4 j⟩
  rw [v73_at]
  generalize val_main_v11 (F := Ideal) x0 x1 x2 = A
  generalize val_main_v23 (F := Ideal) x0 x3 x4 = B
  generalize val_main_v35 (F := Ideal) x0 x5 x6 = C
  rfl

/-- Token n of channel c sits at entry (n / 64, n % 64) of the (batch, channel) matrix. -/
theorem idx_untok (b : Fin 16) (n : Fin 4096) (c : Fin 512) :
    idx_main_v74 (idx_main_v75 (ix3 b n c))
      = ix4 b c (⟨n.val / 64, by have h : n.val < 4096 := n.isLt; omega⟩ : Fin 64) (⟨n.val % 64, Nat.mod_lt _ (by decide)⟩ : Fin 64) := by
  have hb := b.isLt; have hc := c.isLt; have hn := n.isLt
  funext a
  apply Fin.ext
  match a with
  | ⟨0, _⟩ => show ((b.val * 512 + c.val) * 4096 + n.val) / 2097152 = b.val; omega
  | ⟨1, _⟩ => show ((b.val * 512 + c.val) * 4096 + n.val) / 4096 % 512 = c.val; omega
  | ⟨2, _⟩ => show ((b.val * 512 + c.val) * 4096 + n.val) / 64 % 64 = n.val / 64; omega
  | ⟨3, _⟩ => show ((b.val * 512 + c.val) * 4096 + n.val) % 64 = n.val % 64; omega

/-- The reference's result is the specification's function of the seven argument arrays. -/
theorem result_eq (x0 : (⟨S16x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) :
    Cert.ReferenceIdeal.Read.val_main_v75 (F := Ideal) x0 x1 x2 x3 x4 x5 x6 = Cert.PoolAttn.G x0 x1 x2 x3 x4 x5 x6 := by
  funext j
  obtain ⟨b, n, c, rfl⟩ : ∃ (b : Fin 16) (n : Fin 4096) (c : Fin 512), j = ix3 b n c := ⟨j 0, j 1, j 2, eq_ix3 j⟩
  rw [val_main_v75_apply, val_main_v74_apply, idx_untok, v73_eq, v11_eq, v23_eq, v35_eq]
  rfl

end Cert.ReferenceIdeal.RefValue

end
-- ==== Proof.lean ====
/-
  A pooled double-softmax attention over per-channel 64 × 64 token grids, computed by two grid kernels with
  reshapes between them, against the same computation written with whole-array operations.

  Both programs form three projections logistic (x Wᵀ + β) of the tokens, read each per batch and channel as a
  64 × 64 matrix (token 64 i + k at entry (i, k)), average adjacent row pairs of the query and key matrices, take the
  softmax of the scaled products (full query rows against pooled key rows, and pooled query rows against full key
  rows), multiply the second softmax into the values and the first into that product, and lay the result back out
  token-major. On the extended reals every step of one program is the same operation as the corresponding step of
  the other: a change of float format is the identity, the kernel's logistic is 1 / (1 + exp (-s)) as the reference
  spells it, a product into a zero accumulator and a host contraction are the same finite sum, a lane reduction and
  a host reduction from the same initial word are the same sum or the same fold of max, and the scale, the divisor 2
  and -∞ are the same words on both sides. The tilings differ (rows of 1024 tokens, then groups of 128 channels,
  against whole arrays) but each result block is the restriction of one whole-array function, and the blocks tile
  their arrays. So both programs end at one function of the seven arguments (Spec: Cert.PoolAttn.G), and no step
  uses that the inputs are finite.

  The frames of the two kernel programs are the generated ones; the reference's frame is its generated run with the
  result dropped; the idealization rewrote nothing, so preserves is trivial.
-/
import proofs.«116702_j85564338471094_2_alg».proof.Defs
import proofs.«116702_j85564338471094_2_alg».proof.Proof.Gen.Kernel
import proofs.«116702_j85564338471094_2_alg».proof.Proof.Gen.Kernel.Skeleton
import proofs.«116702_j85564338471094_2_alg».proof.Proof.Gen.Kernel.Launch
import proofs.«116702_j85564338471094_2_alg».proof.Proof.Gen.Kernel.Points
import proofs.«116702_j85564338471094_2_alg».proof.Proof.Gen.Kernel.Frame
import proofs.«116702_j85564338471094_2_alg».proof.Proof.Gen.KernelIdeal
import proofs.«116702_j85564338471094_2_alg».proof.Proof.Gen.KernelIdeal.Skeleton
import proofs.«116702_j85564338471094_2_alg».proof.Proof.Gen.KernelIdeal.Launch
import proofs.«116702_j85564338471094_2_alg».proof.Proof.Gen.KernelIdeal.Points
import proofs.«116702_j85564338471094_2_alg».proof.Proof.Gen.KernelIdeal.Frame
import proofs.«116702_j85564338471094_2_alg».proof.Proof.Gen.ReferenceIdeal
import proofs.«116702_j85564338471094_2_alg».proof.Proof.Gen.ReferenceIdeal.Run
import proofs.«116702_j85564338471094_2_alg».proof.Proof.Gen.ReferenceIdeal.Read
import proofs.«116702_j85564338471094_2_alg».proof.Proof.Gen.Pre_finite_inputs
import proofs.«116702_j85564338471094_2_alg».proof.Proof.KernelValue
import proofs.«116702_j85564338471094_2_alg».proof.Proof.RefValue
import Idealize.ShloMosaic.Adequacy
import Idealize.ShloMosaic.Init

noncomputable section

namespace Cert.Proof

open Idealize.ShloMosaic Idealize.ShloMosaic.TcCoe Idealize.SL.Sem

/-- The reference runs and gives its arguments back: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result at the specification's
    function of those arguments. -/
theorem algebraic : Cert.algebraic_KernelIdeal_ReferenceIdeal := by
  intro m ρ m' ρ' _ hagree
  refine ⟨fun c => Cert.PoolAttn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_value m ρ c), (h c).2⟩)
      (Cert.KernelIdeal.Result.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v75_eq, Cert.ReferenceIdeal.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
